-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x600000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S10000x128 : Shape := ⟨2, ![10000, 128]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x64 : Shape := ⟨2, ![50000, 64]⟩
abbrev S10000x64 : Shape := ⟨2, ![10000, 64]⟩
abbrev S650000x64 : Shape := ⟨2, ![650000, 64]⟩
abbrev S1x64 : Shape := ⟨2, ![1, 64]⟩

abbrev nBuf : Space → Nat
  | .hbm => 130
  | .vmem => 20
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128x64, .f32⟩
  | 5 => ⟨S64, .f32⟩
  | 6 => ⟨S50000, .i32⟩
  | 7 => ⟨S1x600000, .i32⟩
  | 8 => ⟨S600000, .i32⟩
  | 9 => ⟨S650000, .i32⟩
  | 10 => ⟨S1x600000, .i32⟩
  | 11 => ⟨S600000, .i32⟩
  | 12 => ⟨S650000, .i32⟩
  | 13 => ⟨S50000x128, .f32⟩
  | 14 => ⟨S_, .f32⟩
  | 15 => ⟨S650000, .f32⟩
  | 16 => ⟨S_, .f32⟩
  | 17 => ⟨S50000, .f32⟩
  | 18 => ⟨S650000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S650000, .i32⟩
  | 33 => ⟨S650000, .i1⟩
  | 34 => ⟨S_, .i32⟩
  | 35 => ⟨S650000, .i32⟩
  | 36 => ⟨S650000, .i32⟩
  | 37 => ⟨S650000, .i32⟩
  | 38 => ⟨S650000x1, .i32⟩
  | 39 => ⟨S650000, .f32⟩
  | 40 => ⟨S_, .i32⟩
  | 41 => ⟨S650000, .i32⟩
  | 42 => ⟨S650000, .i1⟩
  | 43 => ⟨S_, .i32⟩
  | 44 => ⟨S650000, .i32⟩
  | 45 => ⟨S650000, .i32⟩
  | 46 => ⟨S650000, .i32⟩
  | 47 => ⟨S650000x1, .i32⟩
  | 48 => ⟨S650000, .f32⟩
  | 49 => ⟨S650000, .f32⟩
  | 50 => ⟨S_, .i32⟩
  | 51 => ⟨S650000, .i32⟩
  | 52 => ⟨S650000, .i1⟩
  | 53 => ⟨S_, .i32⟩
  | 54 => ⟨S650000, .i32⟩
  | 55 => ⟨S650000, .i32⟩
  | 56 => ⟨S650000, .i32⟩
  | 57 => ⟨S650000x1, .i32⟩
  | 58 => ⟨S650000x128, .f32⟩
  | 59 => ⟨S650000x1, .f32⟩
  | 60 => ⟨S650000x128, .f32⟩
  | 61 => ⟨S650000x128, .f32⟩
  | 62 => ⟨S_, .f32⟩
  | 63 => ⟨S50000x128, .f32⟩
  | 64 => ⟨S650000x1, .i32⟩
  | 65 => ⟨S50000x128, .f32⟩
  | 66 => ⟨S1x128, .f32⟩
  | 67 => ⟨S50000x128, .f32⟩
  | 68 => ⟨S50000, .i32⟩
  | 69 => ⟨S1x600000, .i32⟩
  | 70 => ⟨S600000, .i32⟩
  | 71 => ⟨S650000, .i32⟩
  | 72 => ⟨S1x600000, .i32⟩
  | 73 => ⟨S600000, .i32⟩
  | 74 => ⟨S650000, .i32⟩
  | 75 => ⟨S50000x64, .f32⟩
  | 76 => ⟨S_, .f32⟩
  | 77 => ⟨S650000, .f32⟩
  | 78 => ⟨S_, .f32⟩
  | 79 => ⟨S50000, .f32⟩
  | 80 => ⟨S650000x1, .i32⟩
  | 81 => ⟨S50000, .f32⟩
  | 82 => ⟨S_, .f32⟩
  | 83 => ⟨S50000, .f32⟩
  | 84 => ⟨S50000, .i1⟩
  | 85 => ⟨S_, .f32⟩
  | 86 => ⟨S50000, .f32⟩
  | 87 => ⟨S50000, .f32⟩
  | 88 => ⟨S50000, .f32⟩
  | 89 => ⟨S_, .f32⟩
  | 90 => ⟨S_, .f32⟩
  | 91 => ⟨S50000, .f32⟩
  | 92 => ⟨S50000, .f32⟩
  | 93 => ⟨S_, .i32⟩
  | 94 => ⟨S650000, .i32⟩
  | 95 => ⟨S650000, .i1⟩
  | 96 => ⟨S_, .i32⟩
  | 97 => ⟨S650000, .i32⟩
  | 98 => ⟨S650000, .i32⟩
  | 99 => ⟨S650000, .i32⟩
  | 100 => ⟨S650000x1, .i32⟩
  | 101 => ⟨S650000, .f32⟩
  | 102 => ⟨S_, .i32⟩
  | 103 => ⟨S650000, .i32⟩
  | 104 => ⟨S650000, .i1⟩
  | 105 => ⟨S_, .i32⟩
  | 106 => ⟨S650000, .i32⟩
  | 107 => ⟨S650000, .i32⟩
  | 108 => ⟨S650000, .i32⟩
  | 109 => ⟨S650000x1, .i32⟩
  | 110 => ⟨S650000, .f32⟩
  | 111 => ⟨S650000, .f32⟩
  | 112 => ⟨S_, .i32⟩
  | 113 => ⟨S650000, .i32⟩
  | 114 => ⟨S650000, .i1⟩
  | 115 => ⟨S_, .i32⟩
  | 116 => ⟨S650000, .i32⟩
  | 117 => ⟨S650000, .i32⟩
  | 118 => ⟨S650000, .i32⟩
  | 119 => ⟨S650000x1, .i32⟩
  | 120 => ⟨S650000x64, .f32⟩
  | 121 => ⟨S650000x1, .f32⟩
  | 122 => ⟨S650000x64, .f32⟩
  | 123 => ⟨S650000x64, .f32⟩
  | 124 => ⟨S_, .f32⟩
  | 125 => ⟨S50000x64, .f32⟩
  | 126 => ⟨S650000x1, .i32⟩
  | 127 => ⟨S50000x64, .f32⟩
  | _ => ⟨S50000x128, .f32⟩

abbrev hbmTy0_1 (i : Nat) : BufTy := match i % 128 with
  | 0 => ⟨S1x64, .f32⟩
  | 1 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_call1_v0 : Ref sig .tc := ⟨.hbm, 90, rfl⟩
abbrev main_call1_v1 : Ref sig .tc := ⟨.hbm, 91, rfl⟩
abbrev main_v65 : Ref sig .tc := ⟨.hbm, 92, rfl⟩
abbrev main_c_15 : Ref sig .tc := ⟨.hbm, 93, rfl⟩
abbrev main_v66 : Ref sig .tc := ⟨.hbm, 94, rfl⟩
abbrev main_v67 : Ref sig .tc := ⟨.hbm, 95, rfl⟩
abbrev main_c_16 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_17 : Ref sig .tc := ⟨.hbm, 102, rfl⟩
abbrev main_v73 : Ref sig .tc := ⟨.hbm, 103, rfl⟩
abbrev main_v74 : Ref sig .tc := ⟨.hbm, 104, rfl⟩
abbrev main_c_18 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_19 : Ref sig .tc := ⟨.hbm, 112, rfl⟩
abbrev main_v81 : Ref sig .tc := ⟨.hbm, 113, rfl⟩
abbrev main_v82 : Ref sig .tc := ⟨.hbm, 114, rfl⟩
abbrev main_c_20 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_21 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  dot_S10000x128_S128x128_S10000x128_1_0_0_1_n_n_wf : DotDims.WF S10000x128 S128x128 S10000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S10000x128_S128x64_S10000x64_1_0_0_1_n_n_wf : DotDims.WF S10000x128 S128x64 S10000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S50000x64.size a
  hwx2_2 : ∀ i : grid2.Coords, EltTy.bits .f32 = 32 ∨ (Rect.block (s := S50000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S50000x64.size a
  hwx3_2 : ∀ i : grid3.Coords, EltTy.bits .f32 = 32 ∨ (Rect.block (s := S50000x64) S10000x64.size (cc3_transform_2 i) (hinb3_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v93) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v94) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v95) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x64 : Shape := ⟨2, ![50000, 64]⟩
abbrev S650000x64 : Shape := ⟨2, ![650000, 64]⟩
abbrev S1x64 : Shape := ⟨2, ![1, 64]⟩

abbrev nBuf : Space → Nat
  | .hbm => 135
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128x64, .f32⟩
  | 5 => ⟨S64, .f32⟩
  | 6 => ⟨S50000, .i32⟩
  | 7 => ⟨S1x600000, .i32⟩
  | 8 => ⟨S600000, .i32⟩
  | 9 => ⟨S650000, .i32⟩
  | 10 => ⟨S1x600000, .i32⟩
  | 11 => ⟨S600000, .i32⟩
  | 12 => ⟨S650000, .i32⟩
  | 13 => ⟨S50000x128, .f32⟩
  | 14 => ⟨S_, .f32⟩
  | 15 => ⟨S650000, .f32⟩
  | 16 => ⟨S_, .f32⟩
  | 17 => ⟨S50000, .f32⟩
  | 18 => ⟨S650000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S650000, .i32⟩
  | 33 => ⟨S650000, .i1⟩
  | 34 => ⟨S_, .i32⟩
  | 35 => ⟨S650000, .i32⟩
  | 36 => ⟨S650000, .i32⟩
  | 37 => ⟨S650000, .i32⟩
  | 38 => ⟨S650000x1, .i32⟩
  | 39 => ⟨S650000, .f32⟩
  | 40 => ⟨S_, .i32⟩
  | 41 => ⟨S650000, .i32⟩
  | 42 => ⟨S650000, .i1⟩
  | 43 => ⟨S_, .i32⟩
  | 44 => ⟨S650000, .i32⟩
  | 45 => ⟨S650000, .i32⟩
  | 46 => ⟨S650000, .i32⟩
  | 47 => ⟨S650000x1, .i32⟩
  | 48 => ⟨S650000, .f32⟩
  | 49 => ⟨S650000, .f32⟩
  | 50 => ⟨S_, .i32⟩
  | 51 => ⟨S650000, .i32⟩
  | 52 => ⟨S650000, .i1⟩
  | 53 => ⟨S_, .i32⟩
  | 54 => ⟨S650000, .i32⟩
  | 55 => ⟨S650000, .i32⟩
  | 56 => ⟨S650000, .i32⟩
  | 57 => ⟨S650000x1, .i32⟩
  | 58 => ⟨S650000x128, .f32⟩
  | 59 => ⟨S650000x1, .f32⟩
  | 60 => ⟨S650000x128, .f32⟩
  | 61 => ⟨S650000x128, .f32⟩
  | 62 => ⟨S_, .f32⟩
  | 63 => ⟨S50000x128, .f32⟩
  | 64 => ⟨S650000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000, .i32⟩
  | 73 => ⟨S1x600000, .i32⟩
  | 74 => ⟨S600000, .i32⟩
  | 75 => ⟨S650000, .i32⟩
  | 76 => ⟨S1x600000, .i32⟩
  | 77 => ⟨S600000, .i32⟩
  | 78 => ⟨S650000, .i32⟩
  | 79 => ⟨S50000x64, .f32⟩
  | 80 => ⟨S_, .f32⟩
  | 81 => ⟨S650000, .f32⟩
  | 82 => ⟨S_, .f32⟩
  | 83 => ⟨S50000, .f32⟩
  | 84 => ⟨S650000x1, .i32⟩
  | 85 => ⟨S50000, .f32⟩
  | 86 => ⟨S_, .f32⟩
  | 87 => ⟨S50000, .f32⟩
  | 88 => ⟨S50000, .i1⟩
  | 89 => ⟨S_, .f32⟩
  | 90 => ⟨S50000, .f32⟩
  | 91 => ⟨S50000, .f32⟩
  | 92 => ⟨S50000, .f32⟩
  | 93 => ⟨S_, .f32⟩
  | 94 => ⟨S_, .f32⟩
  | 95 => ⟨S50000, .f32⟩
  | 96 => ⟨S50000, .f32⟩
  | 97 => ⟨S_, .i32⟩
  | 98 => ⟨S650000, .i32⟩
  | 99 => ⟨S650000, .i1⟩
  | 100 => ⟨S_, .i32⟩
  | 101 => ⟨S650000, .i32⟩
  | 102 => ⟨S650000, .i32⟩
  | 103 => ⟨S650000, .i32⟩
  | 104 => ⟨S650000x1, .i32⟩
  | 105 => ⟨S650000, .f32⟩
  | 106 => ⟨S_, .i32⟩
  | 107 => ⟨S650000, .i32⟩
  | 108 => ⟨S650000, .i1⟩
  | 109 => ⟨S_, .i32⟩
  | 110 => ⟨S650000, .i32⟩
  | 111 => ⟨S650000, .i32⟩
  | 112 => ⟨S650000, .i32⟩
  | 113 => ⟨S650000x1, .i32⟩
  | 114 => ⟨S650000, .f32⟩
  | 115 => ⟨S650000, .f32⟩
  | 116 => ⟨S_, .i32⟩
  | 117 => ⟨S650000, .i32⟩
  | 118 => ⟨S650000, .i1⟩
  | 119 => ⟨S_, .i32⟩
  | 120 => ⟨S650000, .i32⟩
  | 121 => ⟨S650000, .i32⟩
  | 122 => ⟨S650000, .i32⟩
  | 123 => ⟨S650000x1, .i32⟩
  | 124 => ⟨S650000x64, .f32⟩
  | 125 => ⟨S650000x1, .f32⟩
  | 126 => ⟨S650000x64, .f32⟩
  | 127 => ⟨S650000x64, .f32⟩
  | _ => ⟨S50000x128, .f32⟩

abbrev hbmTy0_1 (i : Nat) : BufTy := match i % 128 with
  | 0 => ⟨S_, .f32⟩
  | 1 => ⟨S50000x64, .f32⟩
  | 2 => ⟨S650000x1, .i32⟩
  | 3 => ⟨S50000x64, .f32⟩
  | 4 => ⟨S1x64, .f32⟩
  | 5 => ⟨S50000x64, .f32⟩
  | 6 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_14 : Ref sig .tc := ⟨.hbm, 93, rfl⟩
abbrev main_call2_v0 : Ref sig .tc := ⟨.hbm, 94, rfl⟩
abbrev main_call2_v1 : Ref sig .tc := ⟨.hbm, 95, rfl⟩
abbrev main_v67 : Ref sig .tc := ⟨.hbm, 96, rfl⟩
abbrev main_c_15 : Ref sig .tc := ⟨.hbm, 97, rfl⟩
abbrev main_v68 : Ref sig .tc := ⟨.hbm, 98, rfl⟩
abbrev main_v69 : Ref sig .tc := ⟨.hbm, 99, rfl⟩
abbrev main_c_16 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_c_19 : Ref sig .tc := ⟨.hbm, 116, rfl⟩
abbrev main_v83 : Ref sig .tc := ⟨.hbm, 117, rfl⟩
abbrev main_v84 : Ref sig .tc := ⟨.hbm, 118, rfl⟩
abbrev main_c_20 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_21 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x64_S50000x64_1_0_0_1_n_n_wf : DotDims.WF S50000x128 S128x64 S50000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf

class Facts : Prop extends Facts₀ where

variable [Facts]
-- ==== Proof.KernelRun.lean ====
/-
  The kernel program's run with its RESULT buffer kept in the post.

  The generated frame certificate runs @main through its twelve segments (eight stretches of host operations, four
  kernel regions) and, at the end, knows every unscoped buffer of the TensorCore at the last boundary's contents
  `W12`; its stated post keeps only the six argument arrays. Here the same run is stated with one more conjunct: the
  result buffer `main_v95` (the last region's output array) ends at `W12 … main_v95`. What `W12` holds there — the last
  region's value of what the host chain before it left — is read in the modules that import this one.
-/
import proofs.«157647_j4028679324279_1_alg».proof.Proof.Gen.KernelIdeal.Frame

set_option maxRecDepth 16384

noncomputable section

namespace Cert.Gcn.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem for a program of several regions is applied with its implicit arguments found by unifying its
-- conclusion with this statement, which takes unfolding plain definitions in a metavariable's type
set_option backward.isDefEq.respectTransparency.types false in
/-- Every weakly fair execution of @main terminates, nothing faulting; the result buffer ends at the last boundary's
    contents and the six argument arrays as launched. -/
theorem run_out : θ_run defs (onTc (τ := τ) (main (F := F))) ⟨m, fun _ => 0, ρ⟩ (fun r => ∀ c : Dev nD,
      r.2.mem ((c.tc : Thread nD τ).loc main_v95) = W12 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v95 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c)⟩)

end Cert.Gcn.KernelRun

end
-- ==== Proof.Glue.lean ====
/-
  The sparse half of a graph-convolution layer, carried as ONE opaque function, and the reference's result factored
  through it.

  With src / dst the edge list extended by the self-loops, deg the in-degree, dinv = deg^(-1/2) (0 where deg = 0) and
  norm(e) = dinv(src e) · dinv(dst e), a layer sends a dense [50000, D] array h to
      aggr h (n, c) = Σ_{e : dst e = n}  h(src e, c) · norm(e),
  the host's gather / multiply / scatter-add chain. Both programs spell that chain with the same operations in the same
  order, so it is named here once per width as a function of (src, dst, dinv, h) (`aggrCore128`, `aggrCore64`; `dinvCore`
  for the degree normaliser) and never opened: every later statement only needs that equal arguments give equal
  results. Nothing here depends on what a float is, so everything is stated for any float instance.
  The reference's result is then   (aggr64 (relu (aggr128 (x · W1) + b1) · W2)) + b2,   stage by stage.
-/
import proofs.«157647_j4028679324279_1_alg».proof.Proof.RefRead

noncomputable section

namespace Cert.Gcn

open Idealize.ShloMosaic Idealize.ShloMosaic.TcCoe
open Cert.ReferenceIdeal Cert.ReferenceIdeal.Gen Cert.ReferenceIdeal.ReadP

variable {F : FTy → Type} [FloatOps F]

/-- jnp's wrap of a negative index: s < 0 ? s + 50000 : s, on the 650000 edge words. -/
def wrapIdx (s : (⟨S650000, .i32⟩ : BufTy).Contents (Elt F)) : (⟨S650000, .i32⟩ : BufTy).Contents (Elt F) :=
  select (cmpi .slt s (broadcastInDim S650000 ![] bcast_S_S650000 (constantI S_ 32 0#32)))
    (addi s (broadcastInDim S650000 ![] bcast_S_S650000 (constantI S_ 32 50000#32))) s

/-- The in-degree: ones scatter-added at the destinations into zeros. -/
def degCore (d : (⟨S650000, .i32⟩ : BufTy).Contents (Elt F)) : (⟨S50000, .f32⟩ : BufTy).Contents (Elt F) :=
  Host.scatterAdd scatter_S50000_S650000x1_S650000_n_0_0_1
    (broadcastInDim S50000 ![] bcast_S_S50000 (constant (F := F) S_ .f32 0x00000000#32))
    (broadcastInDim S650000x1 ![0] bcast_S650000_S650000x1_0 d)
    (broadcastInDim S650000 ![] bcast_S_S650000 (constant (F := F) S_ .f32 0x3F800000#32))

/-- dinv = where(deg > 0, rsqrt(max(deg, 1e-12)), 0). -/
def dinvCore (d : (⟨S650000, .i32⟩ : BufTy).Contents (Elt F)) : (⟨S50000, .f32⟩ : BufTy).Contents (Elt F) :=
  select (cmpf (F := F) .ogt (degCore (F := F) d) (broadcastInDim S50000 ![] bcast_S_S50000 (constant (F := F) S_ .f32 0x00000000#32)))
    (Host.rsqrt (maximumf (degCore (F := F) d) (broadcastInDim S50000 ![] bcast_S_S50000 (constant (F := F) S_ .f32 0x2B8CBCCC#32))))
    (broadcastInDim S50000 ![] bcast_S_S50000 (id (constant (F := F) S_ .f32 0x00000000#32)))

/-- norm(e) = dinv(src e) · dinv(dst e), on the 650000 edges. -/
def normCore (s d : (⟨S650000, .i32⟩ : BufTy).Contents (Elt F)) (dinv : (⟨S50000, .f32⟩ : BufTy).Contents (Elt F)) :
    (⟨S650000, .f32⟩ : BufTy).Contents (Elt F) :=
  mulf (Host.gather gather_S50000_S650000x1_S650000_n_0_n_n_0_1_1 dinv (broadcastInDim S650000x1 ![0] bcast_S650000_S650000x1_0 (wrapIdx (F := F) s)))
    (Host.gather gather_S50000_S650000x1_S650000_n_0_n_n_0_1_1 dinv (broadcastInDim S650000x1 ![0] bcast_S650000_S650000x1_0 (wrapIdx (F := F) d)))

/-- Gather the rows of `h` at the sources, scale each by its edge's norm, add into the destination rows: 128 columns. -/
def aggrCore128 (s d : (⟨S650000, .i32⟩ : BufTy).Contents (Elt F)) (dinv : (⟨S50000, .f32⟩ : BufTy).Contents (Elt F))
    (h : (⟨S50000x128, .f32⟩ : BufTy).Contents (Elt F)) : (⟨S50000x128, .f32⟩ : BufTy).Contents (Elt F) :=
  Host.scatterAdd scatter_S50000x128_S650000x1_S650000x128_1_0_0_1
    (broadcastInDim S50000x128 ![] bcast_S_S50000x128 (constant (F := F) S_ .f32 0x00000000#32))
    (broadcastInDim S650000x1 ![0] bcast_S650000_S650000x1_0 d)
    (mulf (Host.gather gather_S50000x128_S650000x1_S650000x128_1_0_n_n_0_1_1128 h (broadcastInDim S650000x1 ![0] bcast_S650000_S650000x1_0 (wrapIdx (F := F) s)))
      (broadcastInDim S650000x128 ![0, 1] bcast_S650000x1_S650000x128_0_1
        (broadcastInDim S650000x1 ![0] bcast_S650000_S650000x1_0 (normCore (F := F) s d dinv))))

/-- The same for 64 columns. -/
def aggrCore64 (s d : (⟨S650000, .i32⟩ : BufTy).Contents (Elt F)) (dinv : (⟨S50000, .f32⟩ : BufTy).Contents (Elt F))
    (h : (⟨S50000x64, .f32⟩ : BufTy).Contents (Elt F)) : (⟨S50000x64, .f32⟩ : BufTy).Contents (Elt F) :=
  Host.scatterAdd scatter_S50000x64_S650000x1_S650000x64_1_0_0_1
    (broadcastInDim S50000x64 ![] bcast_S_S50000x64 (constant (F := F) S_ .f32 0x00000000#32))
    (broadcastInDim S650000x1 ![0] bcast_S650000_S650000x1_0 d)
    (mulf (Host.gather gather_S50000x64_S650000x1_S650000x64_1_0_n_n_0_1_164 h (broadcastInDim S650000x1 ![0] bcast_S650000_S650000x1_0 (wrapIdx (F := F) s)))
      (broadcastInDim S650000x64 ![0, 1] bcast_S650000x1_S650000x64_0_1
        (broadcastInDim S650000x1 ![0] bcast_S650000_S650000x1_0 (normCore (F := F) s d dinv))))

/-- The edge list, [2, 600000] words. -/
abbrev Edges (F : FTy → Type) : Type := (⟨S2x600000, .i32⟩ : BufTy).Contents (Elt F)

/-- The first layer's aggregation of `h` over the graph `e`: sources and destinations as the reference's first copy of
    the edge chain spells them. -/
def aggr128 (e : Edges F) (h : (⟨S50000x128, .f32⟩ : BufTy).Contents (Elt F)) : (⟨S50000x128, .f32⟩ : BufTy).Contents (Elt F) :=
  aggrCore128 (F := F) (val_main_v3 (F := F) e) (val_main_v6 (F := F) e) (dinvCore (F := F) (val_main_v6 (F := F) e)) h

/-- The second layer's, over the reference's second copy of the edge chain. -/
def aggr64 (e : Edges F) (h : (⟨S50000x64, .f32⟩ : BufTy).Contents (Elt F)) : (⟨S50000x64, .f32⟩ : BufTy).Contents (Elt F) :=
  aggrCore64 (F := F) (val_main_v53 (F := F) e) (val_main_v56 (F := F) e) (dinvCore (F := F) (val_main_v56 (F := F) e)) h

/-- The reference's first aggregated array is `aggr128` of its first dense product. -/
theorem ref_v45 (x0 : (⟨S50000x128, .f32⟩ : BufTy).Contents (Elt F)) (x1 : Edges F) (x2 : (⟨S128x128, .f32⟩ : BufTy).Contents (Elt F)) :
    val_main_v45 (F := F) x0 x1 x2 = aggr128 (F := F) x1 (val_main_v7 (F := F) x0 x2) := by
  unfold aggr128 aggrCore128 normCore dinvCore degCore wrapIdx
  rfl

/-- The reference's second aggregated array is `aggr64` of its second dense product. -/
theorem ref_v95 (x0 : (⟨S50000x128, .f32⟩ : BufTy).Contents (Elt F)) (x1 : Edges F) (x2 : (⟨S128x128, .f32⟩ : BufTy).Contents (Elt F))
    (x3 : (⟨S128, .f32⟩ : BufTy).Contents (Elt F)) (x4 : (⟨S128x64, .f32⟩ : BufTy).Contents (Elt F)) :
    val_main_v95 (F := F) x0 x1 x2 x3 x4 = aggr64 (F := F) x1 (val_main_v57 (F := F) x0 x1 x2 x3 x4) := by
  unfold aggr64 aggrCore64 normCore dinvCore degCore wrapIdx
  rfl

end Cert.Gcn

end
-- ==== Proof.Stretch1.lean ====
/-
  The kernel program's host operations of the FIRST layer, read from any contents `Wx` they are entered with.

  Three stretches lie between the launch and the first bias region: the edge list's sources and destinations (before the
  first dense product), the degree normaliser (the degree count, its rsqrt and the where), and the aggregation chain with
  the bias's cast to a row. Each lemma reads ONE result buffer after its stretch as the named core function of what the
  stretch was entered with, or says that a buffer the stretch does not write keeps its contents.
-/
import proofs.«157647_j4028679324279_1_alg».proof.Proof.Gen.KernelIdeal.Launch
import proofs.«157647_j4028679324279_1_alg».proof.Proof.Glue
import Idealize.ShloMosaic.Lib.StableHlo.Run

set_option maxRecDepth 16384

noncomputable section

namespace Cert.Gcn.Stretch

open Idealize.ShloMosaic Idealize.ShloMosaic.TcCoe Idealize.ShloMosaic.StableHlo
open Cert.KernelIdeal Cert.KernelIdeal.Gen

variable {F : FTy → Type} [FloatOps F] (Wx : Valuation τ sig (Elt F))

/-! ## Before the first dense product: sources and destinations -/

set_option maxHeartbeats 4000000 in
/-- The sources: the edge list's row 0 followed by the self-loops 0 … 49999. -/
theorem l1_src : after hostOps0 Wx (Proc.devRef .tc main_v3) = Cert.ReferenceIdeal.ReadP.val_main_v3 (F := F) (Wx (Proc.devRef .tc main_arg1)) := by
  after_results_simp
  rfl

set_option maxHeartbeats 4000000 in
/-- The destinations: the edge list's row 1 followed by the self-loops. -/
theorem l1_dst : after hostOps0 Wx (Proc.devRef .tc main_v6) = Cert.ReferenceIdeal.ReadP.val_main_v6 (F := F) (Wx (Proc.devRef .tc main_arg1)) := by
  after_results_simp
  rfl

set_option maxHeartbeats 4000000 in
/-- Argument 0 is not written before the first dense product. -/
theorem l1_pre_arg0 : after hostOps0 Wx (Proc.devRef .tc main_arg0) = Wx (Proc.devRef .tc main_arg0) := by
  after_results_simp

set_option maxHeartbeats 4000000 in
/-- Argument 1 is not written before the first dense product. -/
theorem l1_pre_arg1 : after hostOps0 Wx (Proc.devRef .tc main_arg1) = Wx (Proc.devRef .tc main_arg1) := by
  after_results_simp

set_option maxHeartbeats 4000000 in
/-- Argument 2 is not written before the first dense product. -/
theorem l1_pre_arg2 : after hostOps0 Wx (Proc.devRef .tc main_arg2) = Wx (Proc.devRef .tc main_arg2) := by
  after_results_simp

set_option maxHeartbeats 4000000 in
/-- Argument 3 is not written before the first dense product. -/
theorem l1_pre_arg3 : after hostOps0 Wx (Proc.devRef .tc main_arg3) = Wx (Proc.devRef .tc main_arg3) := by
  after_results_simp

set_option maxHeartbeats 4000000 in
/-- Argument 4 is not written before the first dense product. -/
theorem l1_pre_arg4 : after hostOps0 Wx (Proc.devRef .tc main_arg4) = Wx (Proc.devRef .tc main_arg4) := by
  after_results_simp

set_option maxHeartbeats 4000000 in
/-- Argument 5 is not written before the first dense product. -/
theorem l1_pre_arg5 : after hostOps0 Wx (Proc.devRef .tc main_arg5) = Wx (Proc.devRef .tc main_arg5) := by
  after_results_simp

/-! ## Between the first dense product and the aggregation: the degree normaliser -/

set_option maxHeartbeats 4000000 in
/-- dinv of the destinations the stretch is entered with. -/
theorem l1_dinv : after hostOps1_1 (after hostOps1 Wx) (Proc.devRef .tc main_v17) = Cert.Gcn.dinvCore (F := F) (Wx (Proc.devRef .tc main_v6)) := by
  after_results_simp
  rfl

set_option maxHeartbeats 4000000 in
/-- `main_v3` is not written by the degree stretch. -/
theorem l1_deg_main_v3 : after hostOps1_1 (after hostOps1 Wx) (Proc.devRef .tc main_v3) = Wx (Proc.devRef .tc main_v3) := by
  after_results_simp

set_option maxHeartbeats 4000000 in
/-- `main_v6` is not written by the degree stretch. -/
theorem l1_deg_main_v6 : after hostOps1_1 (after hostOps1 Wx) (Proc.devRef .tc main_v6) = Wx (Proc.devRef .tc main_v6) := by
  after_results_simp

set_option maxHeartbeats 4000000 in
/-- `main_v7` is not written by the degree stretch. -/
theorem l1_deg_main_v7 : after hostOps1_1 (after hostOps1 Wx) (Proc.devRef .tc main_v7) = Wx (Proc.devRef .tc main_v7) := by
  after_results_simp

set_option maxHeartbeats 4000000 in
/-- `main_arg1` is not written by the degree stretch. -/
theorem l1_deg_main_arg1 : after hostOps1_1 (after hostOps1 Wx) (Proc.devRef .tc main_arg1) = Wx (Proc.devRef .tc main_arg1) := by
  after_results_simp

set_option maxHeartbeats 4000000 in
/-- `main_arg3` is not written by the degree stretch. -/
theorem l1_deg_main_arg3 : after hostOps1_1 (after hostOps1 Wx) (Proc.devRef .tc main_arg3) = Wx (Proc.devRef .tc main_arg3) := by
  after_results_simp

set_option maxHeartbeats 4000000 in
/-- `main_arg4` is not written by the degree stretch. -/
theorem l1_deg_main_arg4 : after hostOps1_1 (after hostOps1 Wx) (Proc.devRef .tc main_arg4) = Wx (Proc.devRef .tc main_arg4) := by
  after_results_simp

set_option maxHeartbeats 4000000 in
/-- `main_arg5` is not written by the degree stretch. -/
theorem l1_deg_main_arg5 : after hostOps1_1 (after hostOps1 Wx) (Proc.devRef .tc main_arg5) = Wx (Proc.devRef .tc main_arg5) := by
  after_results_simp

/-! ## The aggregation chain and the bias's cast -/

set_option maxHeartbeats 4000000 in
/-- The aggregated array: `aggrCore128` of the sources, destinations, dinv and dense product the stretch is entered with. -/
theorem l1_aggr : after hostOps1_2 Wx (Proc.devRef .tc main_v45)
    = Cert.Gcn.aggrCore128 (F := F) (Wx (Proc.devRef .tc main_v3)) (Wx (Proc.devRef .tc main_v6)) (Wx (Proc.devRef .tc main_v17)) (Wx (Proc.devRef .tc main_v7)) := by
  after_results_simp
  rfl

set_option maxHeartbeats 4000000 in
/-- The bias as a row: the [128] argument cast to [1, 128]. -/
theorem l1_bias : after hostOps1_2 Wx (Proc.devRef .tc main_v46)
    = shapeCast S1x128 (Wx (Proc.devRef .tc main_arg3)) shapeCasts_S128_S1x128 := by
  after_results_simp
  rfl

set_option maxHeartbeats 4000000 in
/-- `main_arg1` is not written by the aggregation stretch. -/
theorem l1_agg_main_arg1 : after hostOps1_2 Wx (Proc.devRef .tc main_arg1) = Wx (Proc.devRef .tc main_arg1) := by
  after_results_simp

set_option maxHeartbeats 4000000 in
/-- `main_arg4` is not written by the aggregation stretch. -/
theorem l1_agg_main_arg4 : after hostOps1_2 Wx (Proc.devRef .tc main_arg4) = Wx (Proc.devRef .tc main_arg4) := by
  after_results_simp

set_option maxHeartbeats 4000000 in
/-- `main_arg5` is not written by the aggregation stretch. -/
theorem l1_agg_main_arg5 : after hostOps1_2 Wx (Proc.devRef .tc main_arg5) = Wx (Proc.devRef .tc main_arg5) := by
  after_results_simp

end Cert.Gcn.Stretch

end
-- ==== Proof.Stretch2.lean ====
/-
  The kernel program's host operations of the SECOND layer, read from any contents `Wx` they are entered with.

  The second layer repeats the first's three stretches on its own buffers: sources and destinations again (before the
  second dense product), the degree normaliser, and the aggregation chain on 64 columns with the bias's cast to a row.
-/
import proofs.«157647_j4028679324279_1_alg».proof.Proof.Gen.KernelIdeal.Launch
import proofs.«157647_j4028679324279_1_alg».proof.Proof.Glue
import Idealize.ShloMosaic.Lib.StableHlo.Run

set_option maxRecDepth 16384

noncomputable section

namespace Cert.Gcn.Stretch

open Idealize.ShloMosaic Idealize.ShloMosaic.TcCoe Idealize.ShloMosaic.StableHlo
open Cert.KernelIdeal Cert.KernelIdeal.Gen

variable {F : FTy → Type} [FloatOps F] (Wx : Valuation τ sig (Elt F))

/-! ## Before the second dense product: sources and destinations -/

set_option maxHeartbeats 4000000 in
/-- The sources, second copy. -/
theorem l2_src : after hostOps2 Wx (Proc.devRef .tc main_v51) = Cert.ReferenceIdeal.ReadP.val_main_v53 (F := F) (Wx (Proc.devRef .tc main_arg1)) := by
  after_results_simp
  rfl

set_option maxHeartbeats 4000000 in
/-- The destinations, second copy. -/
theorem l2_dst : after hostOps2 Wx (Proc.devRef .tc main_v54) = Cert.ReferenceIdeal.ReadP.val_main_v56 (F := F) (Wx (Proc.devRef .tc main_arg1)) := by
  after_results_simp
  rfl

set_option maxHeartbeats 4000000 in
/-- `main_v47` is not written before the second dense product. -/
theorem l2_pre_main_v47 : after hostOps2 Wx (Proc.devRef .tc main_v47) = Wx (Proc.devRef .tc main_v47) := by
  after_results_simp

set_option maxHeartbeats 4000000 in
/-- `main_arg4` is not written before the second dense product. -/
theorem l2_pre_main_arg4 : after hostOps2 Wx (Proc.devRef .tc main_arg4) = Wx (Proc.devRef .tc main_arg4) := by
  after_results_simp

set_option maxHeartbeats 4000000 in
/-- `main_arg5` is not written before the second dense product. -/
theorem l2_pre_main_arg5 : after hostOps2 Wx (Proc.devRef .tc main_arg5) = Wx (Proc.devRef .tc main_arg5) := by
  after_results_simp

/-! ## The degree normaliser -/

set_option maxHeartbeats 4000000 in
/-- dinv of the destinations the stretch is entered with. -/
theorem l2_dinv : after hostOps3_1 (after hostOps3 Wx) (Proc.devRef .tc main_v65) = Cert.Gcn.dinvCore (F := F) (Wx (Proc.devRef .tc main_v54)) := by
  after_results_simp
  rfl

set_option maxHeartbeats 4000000 in
/-- `main_v51` is not written by the degree stretch. -/
theorem l2_deg_main_v51 : after hostOps3_1 (after hostOps3 Wx) (Proc.devRef .tc main_v51) = Wx (Proc.devRef .tc main_v51) := by
  after_results_simp

set_option maxHeartbeats 4000000 in
/-- `main_v54` is not written by the degree stretch. -/
theorem l2_deg_main_v54 : after hostOps3_1 (after hostOps3 Wx) (Proc.devRef .tc main_v54) = Wx (Proc.devRef .tc main_v54) := by
  after_results_simp

set_option maxHeartbeats 4000000 in
/-- `main_v55` is not written by the degree stretch. -/
theorem l2_deg_main_v55 : after hostOps3_1 (after hostOps3 Wx) (Proc.devRef .tc main_v55) = Wx (Proc.devRef .tc main_v55) := by
  after_results_simp

set_option maxHeartbeats 4000000 in
/-- `main_arg5` is not written by the degree stretch. -/
theorem l2_deg_main_arg5 : after hostOps3_1 (after hostOps3 Wx) (Proc.devRef .tc main_arg5) = Wx (Proc.devRef .tc main_arg5) := by
  after_results_simp

/-! ## The aggregation chain and the bias's cast -/

set_option maxHeartbeats 4000000 in
/-- The aggregated array on 64 columns. -/
theorem l2_aggr : after hostOps3_2 Wx (Proc.devRef .tc main_v93)
    = Cert.Gcn.aggrCore64 (F := F) (Wx (Proc.devRef .tc main_v51)) (Wx (Proc.devRef .tc main_v54)) (Wx (Proc.devRef .tc main_v65)) (Wx (Proc.devRef .tc main_v55)) := by
  after_results_simp
  rfl

set_option maxHeartbeats 4000000 in
/-- The bias as a row: the [64] argument cast to [1, 64]. -/
theorem l2_bias : after hostOps3_2 Wx (Proc.devRef .tc main_v94)
    = shapeCast S1x64 (Wx (Proc.devRef .tc main_arg5)) shapeCasts_S64_S1x64 := by
  after_results_simp
  rfl

end Cert.Gcn.Stretch

end
-- ==== Proof.Spec.lean ====
/-
  The four dense stages of a two-layer graph convolution, as functions on the extended reals, index by index.

  A layer is  out = Â · (x · W) + b  with Â the normalised adjacency (self-loops added); the sparse product with Â is
  carried by the host's gather / scatter-add chain and is never opened here. What the four kernel regions compute are
  the dense pieces around it:
    * `mm1`, `mm2`   — a row of `x` against a column of `W`: the entry (r, c) is the sum over k of x(r, k) · W(k, c);
    * `biasRelu`     — add the bias row (a [1, 128] array, read at (0, c)) and clamp below at the f32 word 0;
    * `biasAdd`      — add the bias row (a [1, 64] array, read at (0, c)).
  The zero of the clamp stays the literal word `Ideal.ofBits .f32 0`: both programs spell the same word and it is never
  evaluated.
-/
import Idealize.ShloMosaic.PureOps.Ideal
import Idealize.ShloMosaic.Lib.ValueIdx

noncomputable section

namespace Cert.Gcn

open Idealize.ShloMosaic Idealize.ShloMosaic.ValueIdx

/-- Node features with 128 columns: [50000, 128]. -/
abbrev Nx128 : Shape := ⟨2, ![50000, 128]⟩
/-- Node features with 64 columns: [50000, 64]. -/
abbrev Nx64 : Shape := ⟨2, ![50000, 64]⟩
/-- The first layer's weights: [128, 128]. -/
abbrev W128x128 : Shape := ⟨2, ![128, 128]⟩
/-- The second layer's weights: [128, 64]. -/
abbrev W128x64 : Shape := ⟨2, ![128, 64]⟩
/-- A bias as one row: [1, 128]. -/
abbrev Row128 : Shape := ⟨2, ![1, 128]⟩
/-- A bias as one row: [1, 64]. -/
abbrev Row64 : Shape := ⟨2, ![1, 64]⟩

/-- (x · W)(r, c) = Σ_k x(r, k) · W(k, c), for x : [50000, 128], W : [128, 128]. -/
def mm1 (x : Nx128.Idx → EReal) (w : W128x128.Idx → EReal) : Nx128.Idx → EReal :=
  fun i => ∑ k : Fin 128, x (ix2 (⟨(i 0).val, (i 0).isLt⟩ : Fin 50000) k) * w (ix2 k (⟨(i 1).val, (i 1).isLt⟩ : Fin 128))

/-- (x · W)(r, c) = Σ_k x(r, k) · W(k, c), for x : [50000, 128], W : [128, 64]. -/
def mm2 (x : Nx128.Idx → EReal) (w : W128x64.Idx → EReal) : Nx64.Idx → EReal :=
  fun i => ∑ k : Fin 128, x (ix2 (⟨(i 0).val, (i 0).isLt⟩ : Fin 50000) k) * w (ix2 k (⟨(i 1).val, (i 1).isLt⟩ : Fin 64))

/-- max(a(r, c) + b(0, c), 0): the first layer's bias and rectifier. -/
def biasRelu (a : Nx128.Idx → EReal) (b : Row128.Idx → EReal) : Nx128.Idx → EReal :=
  fun i => max (a i + b (ix2 (0 : Fin 1) (⟨(i 1).val, (i 1).isLt⟩ : Fin 128))) (Ideal.ofBits .f32 0x00000000#32)

/-- a(r, c) + b(0, c): the second layer's bias. -/
def biasAdd (a : Nx64.Idx → EReal) (b : Row64.Idx → EReal) : Nx64.Idx → EReal :=
  fun i => a i + b (ix2 (0 : Fin 1) (⟨(i 1).val, (i 1).isLt⟩ : Fin 64))

end Cert.Gcn

end
-- ==== Proof.RegionMatmul.lean ====
/-
  The two dense products of the graph convolution, read off the pipelines that compute them.

  Each product x · W runs as five grid points. Point t stages rows 10000·t … 10000·t + 9999 of x and the whole of W,
  and writes back the same rows of the result; the entry (r, c) of the staged block is the sum over k of
  x(10000·t + r, k) · W(k, c): at the extended reals the narrowing of the operands to bf16 is the identity and the
  product into the zero accumulator is the plain sum. The five row blocks tile the 50000 rows (row r lies in block
  r / 10000), so the array the pipeline leaves is the whole product, `Cert.Gcn.mm1` for the first layer (128 columns)
  and `Cert.Gcn.mm2` for the second (64 columns). Both are stated for ARBITRARY buffer contents `V` at the region's entry.
-/
import proofs.«157647_j4028679324279_1_alg».proof.Proof.Gen.KernelIdeal.Frame
import proofs.«157647_j4028679324279_1_alg».proof.Proof.Spec
import Idealize.ShloMosaic.PureOps.Ideal.Laws
import Idealize.ShloMosaic.Lib.ValueIdx
import Idealize.ShloMosaic.Lib.Pipeline.Value

noncomputable section

namespace Cert.Gcn.Regions

open Idealize.ShloMosaic Idealize.ShloMosaic.ValueIdx Idealize.ShloMosaic.TcCoe Idealize.SL.Sem
open Cert.KernelIdeal Cert.KernelIdeal.Gen
open Idealize.ShloMosaic.Pipeline (Dat)

/-- A block read at offset (0, 0) is the whole block. -/
theorem matmul_zero_offsets : (![0, 0] : Fin 2 → Nat) = fun _ => 0 := funext fun a => by fin_cases a <;> rfl

/-! ## The first layer's product: [10000, 128] row blocks of x against W : [128, 128] -/

/-- The left operand's row coordinate is the result's row: axis 0 of the left operand is not contracted. -/
theorem dot1_lhs_row (i : S10000x128.Idx) (k : dot_S10000x128_S128x128_S10000x128_1_0_0_1_n_n.contr.Idx) :
    (dot_S10000x128_S128x128_S10000x128_1_0_0_1_n_n.lhsIdx i k 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl

/-- The right operand's column coordinate is the result's column: axis 1 of the right operand is not contracted. -/
theorem dot1_rhs_col (i : S10000x128.Idx) (k : dot_S10000x128_S128x128_S10000x128_1_0_0_1_n_n.contr.Idx) :
    (dot_S10000x128_S128x128_S10000x128_1_0_0_1_n_n.rhsIdx i k 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- What the body stores, at the entry (p, q) of a block: the sum over k of x0(p, k) · w(k, q). The narrowing of both
    operands is the identity on extended reals, the accumulator is the zero splat, and the contraction's one-axis index
    is re-indexed by `Fin 128`. -/
theorem matmul1_block_entry (x0 : Vec Ideal S10000x128 .f32) (w : Vec Ideal S128x128 .f32) (p : Fin 10000) (q : Fin 128) :
    k0_pay1 (F := Ideal) x0 w (ix2 p q) = ∑ k : Fin 128, x0 (ix2 p k) * w (ix2 k q) := by
  unfold k0_pay1
  refine (Ideal.matmul_constant_zero_apply dot_S10000x128_S128x128_S10000x128_1_0_0_1_n_n none _ _ (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k :=
    funext fun a => Fin.ext (by
      match a with
      | ⟨0, _⟩ => exact dot1_lhs_row _ _
      | ⟨1, _⟩ => exact ((dot_S10000x128_S128x128_S10000x128_1_0_0_1_n_n.lhsIdx_val_of_single rfl _ _).trans hk))
  have er : dot_S10000x128_S128x128_S10000x128_1_0_0_1_n_n.rhsIdx (ix2 p q) ((contrEquiv1 dot_S10000x128_S128x128_S10000x128_1_0_0_1_n_n 128 rfl rfl).symm k) = ix2 k q :=
    funext fun a => Fin.ext (by
      match a with
      | ⟨0, _⟩ => exact ((dot_S10000x128_S128x128_S10000x128_1_0_0_1_n_n.rhsIdx_val_of_single rfl _ _).trans hk)
      | ⟨1, _⟩ => exact dot1_rhs_col _ _)
  rw [el, er]
  rfl

/-- A row block of the product from a row block of x: if `x0` is rows 10000·b … of `X` and `w` is `W`, the body's
    result at (r, c) is `mm1 X W` at (10000·b + r, c). -/
theorem matmul1_block_eq (X : S50000x128.Idx → EReal) (W : S128x128.Idx → EReal)
    (x0 : Vec Ideal S10000x128 .f32) (w : Vec Ideal S128x128 .f32) (b : Nat)
    (hx : ∀ (y : S10000x128.Idx) (i : S50000x128.Idx), (i 0).val = 10000 * b + (y 0).val → (i 1).val = (y 1).val → x0 y = X i)
    (hw : ∀ y : S128x128.Idx, w y = W y)
    (j : S10000x128.Idx) (i : S50000x128.Idx) (h0 : (i 0).val = 10000 * b + (j 0).val) (h1 : (i 1).val = (j 1).val) :
    k0_pay1 (F := Ideal) x0 w j = Cert.Gcn.mm1 X W i := by
  obtain ⟨p, q, rfl⟩ : ∃ (p : Fin 10000) (q : Fin 128), j = ix2 p q := ⟨j 0, j 1, eq_ix2 j⟩
  have h0' : (i 0).val = 10000 * b + p.val := h0
  have h1' : (i 1).val = q.val := h1
  rw [matmul1_block_entry]
  show _ = ∑ k : Fin 128, X (ix2 (⟨(i 0).val, (i 0).isLt⟩ : Fin 50000) k) * W (ix2 k (⟨(i 1).val, (i 1).isLt⟩ : Fin 128))
  refine Finset.sum_congr rfl fun k _ => ?_
  have hq : (⟨(i 1).val, (i 1).isLt⟩ : Fin 128) = q := Fin.ext h1'
  rw [hx (ix2 p k) (ix2 (⟨(i 0).val, (i 0).isLt⟩ : Fin 50000) k) h0' rfl, hw, hq]

section Layer1

variable (V : (c : Dev nD) → (b : Ref sig .tc) → Buf (Elt Ideal) ((c : Thread nD τ).loc b))

/-- The block index of each window at point t: x and the result move down the rows with t, W stays at (0, 0). -/
theorem block_indices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The staged block of x at point t is rows 10000·t … 10000·t + 9999 of x. -/
theorem matmul1_lhs_block (c : Dev nD) (t : Fin cfg0.N) (y : S10000x128.Idx) (i : S50000x128.Idx)
    (h0 : (i 0).val = 10000 * t.val + (y 0).val) (h1 : (i 1).val = (y 1).val) :
    (iblk0 (F := Ideal) V c 0 t : Vec Ideal S10000x128 .f32) y = (V c main_arg0 : S50000x128.Idx → EReal) i := by
  obtain ⟨e0, e1, -, -, -, -⟩ := block_indices0 t
  unfold iblk0
  rw [View.read_apply]
  show V c main_arg0 _ = V c main_arg0 _
  refine congrArg _ ?_
  funext a
  apply Fin.ext
  match a with
  | ⟨0, _⟩ => show win0_0.index t (0 : Fin 2) * 10000 + 1 * (y 0).val = (i 0).val; rw [e0, h0]; omega
  | ⟨1, _⟩ => show win0_0.index t (1 : Fin 2) * 128 + 1 * (y 1).val = (i 1).val; rw [e1, h1]; omega

/-- The staged block of W at every point is W. -/
theorem matmul1_rhs_block (c : Dev nD) (t : Fin cfg0.N) (y : S128x128.Idx) :
    (iblk0 (F := Ideal) V c 1 t : Vec Ideal S128x128 .f32) y = (V c main_arg2 : S128x128.Idx → EReal) y := by
  obtain ⟨-, -, e2, e3, -, -⟩ := block_indices0 t
  unfold iblk0
  rw [View.read_apply]
  show V c main_arg2 _ = V c main_arg2 _
  refine congrArg _ ?_
  funext a
  apply Fin.ext
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- What point t writes back is rows 10000·t … 10000·t + 9999 of x · W. -/
theorem region0_flushed (c : Dev nD) (t : Fin cfg0.N) :
    (dat0 (F := Ideal) V c).flushed 2 t
      = ((cfg0.win 2).blk t).view.read (Elt Ideal) (Cert.Gcn.mm1 (V c main_arg0) (V c main_arg2)) := by
  show (cfg0.win 2).cut (grid0.coords t) ((dat0 V c).after 2 t) = _
  rw [after0_2]
  unfold out0_2
  rw [View.canon_unit_zero matmul_zero_offsets]
  simp only [View.ld_unit_zero (S := S10000x128) matmul_zero_offsets, View.ld_unit_zero (S := S128x128) matmul_zero_offsets]
  obtain ⟨-, -, -, -, e4, e5⟩ := block_indices0 t
  funext j
  show k0_pay1 (iblk0 V c 0 t) (iblk0 V c 1 t) j = Cert.Gcn.mm1 (V c main_arg0) (V c main_arg2) (((cfg0.win 2).blk t).view.emb j)
  refine matmul1_block_eq (V c main_arg0) (V c main_arg2) (iblk0 V c 0 t) (iblk0 V c 1 t) t.val
    (fun y i h0 h1 => matmul1_lhs_block V c t y i h0 h1) (fun y => matmul1_rhs_block V c t y) j _ ?_ ?_
  · show win0_2.index t (0 : Fin 2) * 10000 + 1 * (j 0).val = 10000 * t.val + (j 0).val; rw [e4]; omega
  · show win0_2.index t (1 : Fin 2) * 128 + 1 * (j 1).val = (j 1).val; rw [e5]; omega

/-- An index of the result is in point t's block iff each coordinate is in the block's range on its axis. -/
theorem mem_block0 (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v7).slice (win0_2.rect t)).set ↔ _
  rw [View.set_slice_whole, Rect.mem_set_unit]
  exact Iff.rfl

/-- Every entry (r, c) of the result is written back: by the point r / 10000. -/
theorem region0_cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 5 := N_0
  refine ⟨⟨(i 0).val / 10000, by rw [hN]; omega⟩, flush0_2 _, ?_⟩
  obtain ⟨-, -, -, -, e4, e5⟩ := block_indices0 ⟨(i 0).val / 10000, by rw [hN]; omega⟩
  rw [mem_block0]
  intro a
  match a with
  | ⟨0, _⟩ =>
    show win0_2.index _ (0 : Fin 2) * 10000 ≤ (i 0).val ∧ (i 0).val < win0_2.index _ (0 : Fin 2) * 10000 + 10000
    rw [e4]; show (i 0).val / 10000 * 10000 ≤ (i 0).val ∧ (i 0).val < (i 0).val / 10000 * 10000 + 10000; omega
  | ⟨1, _⟩ =>
    show win0_2.index _ (1 : Fin 2) * 128 ≤ (i 1).val ∧ (i 1).val < win0_2.index _ (1 : Fin 2) * 128 + 128
    rw [e5]; omega

/-- THE FIRST PRODUCT: after the five points the result array holds x · W, entry by entry, whatever the region found
    in the buffers. -/
theorem region0_value (c : Dev nD) :
    (dat0 (F := Ideal) V c).arrAt 2 cfg0.N = Cert.Gcn.mm1 (V c main_arg0) (V c main_arg2) :=
  (dat0 (F := Ideal) V c).arrAt_eq_of_cover 2 (Cert.Gcn.mm1 (V c main_arg0) (V c main_arg2))
    (fun t _ => region0_flushed V c t) region0_cover

end Layer1

/-! ## The second layer's product: [10000, 128] row blocks of h against W : [128, 64] -/

/-- The left operand's row coordinate is the result's row: axis 0 of the left operand is not contracted. -/
theorem dot2_lhs_row (i : S10000x64.Idx) (k : dot_S10000x128_S128x64_S10000x64_1_0_0_1_n_n.contr.Idx) :
    (dot_S10000x128_S128x64_S10000x64_1_0_0_1_n_n.lhsIdx i k 0).val = (i 0).val := by
  unfold DotDims.lhsIdx
  rw [dif_neg (show ¬(0 : Fin S10000x128.rank) ∈ dot_S10000x128_S128x64_S10000x64_1_0_0_1_n_n.lhsBatch by decide),
    dif_pos (show (0 : Fin S10000x128.rank) ∈ dot_S10000x128_S128x64_S10000x64_1_0_0_1_n_n.lhsNonContracting by decide)]
  rfl

/-- The right operand's column coordinate is the result's column: axis 1 of the right operand is not contracted. -/
theorem dot2_rhs_col (i : S10000x64.Idx) (k : dot_S10000x128_S128x64_S10000x64_1_0_0_1_n_n.contr.Idx) :
    (dot_S10000x128_S128x64_S10000x64_1_0_0_1_n_n.rhsIdx i k 1).val = (i 1).val := by
  unfold DotDims.rhsIdx
  rw [dif_neg (show ¬(1 : Fin S128x64.rank) ∈ dot_S10000x128_S128x64_S10000x64_1_0_0_1_n_n.rhsBatch by decide),
    dif_pos (show (1 : Fin S128x64.rank) ∈ dot_S10000x128_S128x64_S10000x64_1_0_0_1_n_n.rhsNonContracting by decide)]
  rfl

/-- What the body stores, at the entry (p, q) of a block: the sum over k of x0(p, k) · w(k, q). The cast of the left
    block to its own shape and the narrowing of both operands are the identity, the accumulator is the zero splat, and
    the contraction's one-axis index is re-indexed by `Fin 128`. -/
theorem matmul2_block_entry (x0 : Vec Ideal S10000x128 .f32) (w : Vec Ideal S128x64 .f32) (p : Fin 10000) (q : Fin 64) :
    k2_pay1 (F := Ideal) x0 w (ix2 p q) = ∑ k : Fin 128, x0 (ix2 p k) * w (ix2 k q) := by
  unfold k2_pay1
  rw [shapeCast_self]
  refine (Ideal.matmul_constant_zero_apply dot_S10000x128_S128x64_S10000x64_1_0_0_1_n_n none _ _ (ix2 p q)).trans ?_
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k :=
    funext fun a => Fin.ext (by
      match a with
      | ⟨0, _⟩ => exact dot2_lhs_row _ _
      | ⟨1, _⟩ => exact ((dot_S10000x128_S128x64_S10000x64_1_0_0_1_n_n.lhsIdx_val_of_single rfl _ _).trans hk))
  have er : dot_S10000x128_S128x64_S10000x64_1_0_0_1_n_n.rhsIdx (ix2 p q) ((contrEquiv1 dot_S10000x128_S128x64_S10000x64_1_0_0_1_n_n 128 rfl rfl).symm k) = ix2 k q :=
    funext fun a => Fin.ext (by
      match a with
      | ⟨0, _⟩ => exact ((dot_S10000x128_S128x64_S10000x64_1_0_0_1_n_n.rhsIdx_val_of_single rfl _ _).trans hk)
      | ⟨1, _⟩ => exact dot2_rhs_col _ _)
  rw [el, er]
  rfl

/-- A row block of the product from a row block of h: if `x0` is rows 10000·b … of `X` and `w` is `W`, the body's
    result at (r, c) is `mm2 X W` at (10000·b + r, c). -/
theorem matmul2_block_eq (X : S50000x128.Idx → EReal) (W : S128x64.Idx → EReal)
    (x0 : Vec Ideal S10000x128 .f32) (w : Vec Ideal S128x64 .f32) (b : Nat)
    (hx : ∀ (y : S10000x128.Idx) (i : S50000x128.Idx), (i 0).val = 10000 * b + (y 0).val → (i 1).val = (y 1).val → x0 y = X i)
    (hw : ∀ y : S128x64.Idx, w y = W y)
    (j : S10000x64.Idx) (i : S50000x64.Idx) (h0 : (i 0).val = 10000 * b + (j 0).val) (h1 : (i 1).val = (j 1).val) :
    k2_pay1 (F := Ideal) x0 w j = Cert.Gcn.mm2 X W i := by
  obtain ⟨p, q, rfl⟩ : ∃ (p : Fin 10000) (q : Fin 64), j = ix2 p q := ⟨j 0, j 1, eq_ix2 j⟩
  have h0' : (i 0).val = 10000 * b + p.val := h0
  have h1' : (i 1).val = q.val := h1
  rw [matmul2_block_entry]
  show _ = ∑ k : Fin 128, X (ix2 (⟨(i 0).val, (i 0).isLt⟩ : Fin 50000) k) * W (ix2 k (⟨(i 1).val, (i 1).isLt⟩ : Fin 64))
  refine Finset.sum_congr rfl fun k _ => ?_
  have hq : (⟨(i 1).val, (i 1).isLt⟩ : Fin 64) = q := Fin.ext h1'
  rw [hx (ix2 p k) (ix2 (⟨(i 0).val, (i 0).isLt⟩ : Fin 50000) k) h0' rfl, hw, hq]

section Layer2

variable (V : (c : Dev nD) → (b : Ref sig .tc) → Buf (Elt Ideal) ((c : Thread nD τ).loc b))

/-- The block index of each window at point t: h and the result move down the rows with t, W stays at (0, 0). -/
theorem block_indices2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The staged block of h at point t is rows 10000·t … 10000·t + 9999 of h. -/
theorem matmul2_lhs_block (c : Dev nD) (t : Fin cfg2.N) (y : S10000x128.Idx) (i : S50000x128.Idx)
    (h0 : (i 0).val = 10000 * t.val + (y 0).val) (h1 : (i 1).val = (y 1).val) :
    (iblk2 (F := Ideal) V c 0 t : Vec Ideal S10000x128 .f32) y = (V c main_v47 : S50000x128.Idx → EReal) i := by
  obtain ⟨e0, e1, -, -, -, -⟩ := block_indices2 t
  unfold iblk2
  rw [View.read_apply]
  show V c main_v47 _ = V c main_v47 _
  refine congrArg _ ?_
  funext a
  apply Fin.ext
  match a with
  | ⟨0, _⟩ => show win2_0.index t (0 : Fin 2) * 10000 + 1 * (y 0).val = (i 0).val; rw [e0, h0]; omega
  | ⟨1, _⟩ => show win2_0.index t (1 : Fin 2) * 128 + 1 * (y 1).val = (i 1).val; rw [e1, h1]; omega

/-- The staged block of W at every point is W. -/
theorem matmul2_rhs_block (c : Dev nD) (t : Fin cfg2.N) (y : S128x64.Idx) :
    (iblk2 (F := Ideal) V c 1 t : Vec Ideal S128x64 .f32) y = (V c main_arg4 : S128x64.Idx → EReal) y := by
  obtain ⟨-, -, e2, e3, -, -⟩ := block_indices2 t
  unfold iblk2
  rw [View.read_apply]
  show V c main_arg4 _ = V c main_arg4 _
  refine congrArg _ ?_
  funext a
  apply Fin.ext
  match a with
  | ⟨0, _⟩ => show win2_1.index t (0 : Fin 2) * 128 + 1 * (y 0).val = (y 0).val; rw [e2]; omega
  | ⟨1, _⟩ => show win2_1.index t (1 : Fin 2) * 64 + 1 * (y 1).val = (y 1).val; rw [e3]; omega

/-- What point t writes back is rows 10000·t … 10000·t + 9999 of h · W. -/
theorem region2_flushed (c : Dev nD) (t : Fin cfg2.N) :
    (dat2 (F := Ideal) V c).flushed 2 t
      = ((cfg2.win 2).blk t).view.read (Elt Ideal) (Cert.Gcn.mm2 (V c main_v47) (V c main_arg4)) := by
  show (cfg2.win 2).cut (grid2.coords t) ((dat2 V c).after 2 t) = _
  rw [after2_2]
  unfold out2_2
  rw [View.canon_unit_zero matmul_zero_offsets]
  simp only [View.ld_unit_zero (S := S10000x128) matmul_zero_offsets, View.ld_unit_zero (S := S128x64) matmul_zero_offsets]
  obtain ⟨-, -, -, -, e4, e5⟩ := block_indices2 t
  funext j
  show k2_pay1 (iblk2 V c 0 t) (iblk2 V c 1 t) j = Cert.Gcn.mm2 (V c main_v47) (V c main_arg4) (((cfg2.win 2).blk t).view.emb j)
  refine matmul2_block_eq (V c main_v47) (V c main_arg4) (iblk2 V c 0 t) (iblk2 V c 1 t) t.val
    (fun y i h0 h1 => matmul2_lhs_block V c t y i h0 h1) (fun y => matmul2_rhs_block V c t y) j _ ?_ ?_
  · show win2_2.index t (0 : Fin 2) * 10000 + 1 * (j 0).val = 10000 * t.val + (j 0).val; rw [e4]; omega
  · show win2_2.index t (1 : Fin 2) * 64 + 1 * (j 1).val = (j 1).val; rw [e5]; omega

/-- An index of the result is in point t's block iff each coordinate is in the block's range on its axis. -/
theorem mem_block2 (t : Fin cfg2.N) (i : S50000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v55).slice (win2_2.rect t)).set ↔ _
  rw [View.set_slice_whole, Rect.mem_set_unit]
  exact Iff.rfl

/-- Every entry (r, c) of the result is written back: by the point r / 10000. -/
theorem region2_cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 5 := N_2
  refine ⟨⟨(i 0).val / 10000, by rw [hN]; omega⟩, flush2_2 _, ?_⟩
  obtain ⟨-, -, -, -, e4, e5⟩ := block_indices2 ⟨(i 0).val / 10000, by rw [hN]; omega⟩
  rw [mem_block2]
  intro a
  match a with
  | ⟨0, _⟩ =>
    show win2_2.index _ (0 : Fin 2) * 10000 ≤ (i 0).val ∧ (i 0).val < win2_2.index _ (0 : Fin 2) * 10000 + 10000
    rw [e4]; show (i 0).val / 10000 * 10000 ≤ (i 0).val ∧ (i 0).val < (i 0).val / 10000 * 10000 + 10000; omega
  | ⟨1, _⟩ =>
    show win2_2.index _ (1 : Fin 2) * 64 ≤ (i 1).val ∧ (i 1).val < win2_2.index _ (1 : Fin 2) * 64 + 64
    rw [e5]; omega

/-- THE SECOND PRODUCT: after the five points the result array holds h · W, entry by entry, whatever the region found
    in the buffers. -/
theorem region2_value (c : Dev nD) :
    (dat2 (F := Ideal) V c).arrAt 2 cfg2.N = Cert.Gcn.mm2 (V c main_v47) (V c main_arg4) :=
  (dat2 (F := Ideal) V c).arrAt_eq_of_cover 2 (Cert.Gcn.mm2 (V c main_v47) (V c main_arg4))
    (fun t _ => region2_flushed V c t) region2_cover

end Layer2

end Cert.Gcn.Regions

end
-- ==== Proof.RegionBias.lean ====
/-
  The two bias stages of the two-layer graph convolution, read off their pipelines as whole-array functions.

  Each stage runs over five grid points. Point t reads rows 10000·t … 10000·t + 9999 of the feature array (all of
  its columns) and the whole one-row bias array, and writes back the same rows of the output array. Entry (r, q) of
  what it stores is the feature block's entry (r, q) plus the bias row's entry (0, q) — the row broadcast down the
  block — and, in the first stage only, the maximum of that sum with the f32 word 0 (kept as the literal word, never
  evaluated).

  For each stage, in order:
    * the stored block at an entry (p, q), over an arbitrary feature block and bias row;
    * the same against the whole-array function of Spec (biasRelu, biasAdd), given where the block's entry sits in
      the array;
    * the index maps over the grid: the feature block and the output block have the same block index (t, 0), the
      bias row's block index is (0, 0);
    * what point t writes back is block t of the whole-array function of the two arrays the region finds;
    * every entry of the output array is in some point's block (row r in the block of point r / 10000);
    * hence the output array after the last point IS that function.
  The arrays the region finds are a parameter V throughout: nothing here depends on how they were produced.
-/
import proofs.«157647_j4028679324279_1_alg».proof.Proof.Gen.KernelIdeal.Frame
import proofs.«157647_j4028679324279_1_alg».proof.Proof.Spec
import Idealize.ShloMosaic.PureOps.Ideal
import Idealize.ShloMosaic.Lib.Pipeline.Value
import Idealize.ShloMosaic.Lib.ValueIdx

noncomputable section

namespace Cert.Gcn.Regions

open Cert.KernelIdeal Cert.KernelIdeal.Gen
open Idealize.ShloMosaic Idealize.ShloMosaic.TcCoe Idealize.SL.Sem Idealize.ShloMosaic.ValueIdx
open Idealize.ShloMosaic.Pipeline (Dat)

/- The TensorCore's buffer contents when a region is entered. -/
variable (V : (c : Dev nD) → (b : Ref sig .tc) → Buf (Elt Ideal) ((c : Thread nD τ).loc b))

/-! ## Shared by both stages -/

/-- The store's rectangle starts at the origin of its buffer. -/
theorem bias_store_origin : (![0, 0] : Fin 2 → Nat) = fun _ => 0 := funext fun a => by fin_cases a <;> rfl

/-! ## The first bias stage: bias, then the rectifier -/

/-- Entry (p, q) of what a grid point of the first bias stage stores: the block's entry plus the bias row's
    entry in column q, clamped below at the f32 word 0. -/
theorem biasRelu_block_apply (x0 : Vec Ideal S10000x128 .f32) (b : Vec Ideal S1x128 .f32) (p : Fin 10000) (q : Fin 128) :
    k1_pay1 x0 b (ix2 p q) = max (x0 (ix2 p q) + b (ix2 (0 : Fin 1) q)) (Ideal.ofBits .f32 0x00000000#32) := by
  unfold k1_pay1
  rw [maximumf_apply, addf_apply, broadcast_apply, shapeCast_self, shapeCast_self]
  have hb : broadcastTo S10000x128 b broadcasts_S1x128_S10000x128 (ix2 p q) = b (ix2 (0 : Fin 1) q) :=
    broadcastTo_apply b broadcasts_S1x128_S10000x128 (ix2 p q) (ix2 (0 : Fin 1) q) (fun a => by
      match a with
      | ⟨0, _⟩ => rfl
      | ⟨1, _⟩ => rfl)
  rw [hb]
  rfl

/-- A stored entry against the whole-array function: when the block's entry j is the array's entry i, the bias
    block is the bias row, and i and j lie in the same column, the stored entry is biasRelu at i. -/
theorem biasRelu_block_point (x0 : Vec Ideal S10000x128 .f32) (b : Vec Ideal S1x128 .f32)
    (A : Cert.Gcn.Nx128.Idx → EReal) (B : Cert.Gcn.Row128.Idx → EReal) (j : S10000x128.Idx) (i : Cert.Gcn.Nx128.Idx)
    (hx : x0 j = A i) (hb : ∀ q : Fin 128, b (ix2 (0 : Fin 1) q) = B (ix2 (0 : Fin 1) q))
    (hcol : (i 1).val = (j 1).val) :
    k1_pay1 x0 b j = Cert.Gcn.biasRelu A B i := by
  obtain ⟨p, q, rfl⟩ : ∃ (p : Fin 10000) (q : Fin 128), j = ix2 p q := ⟨j 0, j 1, eq_ix2 j⟩
  rw [biasRelu_block_apply, hx, hb]
  have hq : (⟨(i 1).val, (i 1).isLt⟩ : Fin 128) = q := Fin.ext hcol
  unfold Cert.Gcn.biasRelu
  rw [hq]

/-- The index maps over the five grid points: the input block moves with the output block, the bias row is
    always block (0, 0), and the output's block index at point t is (t, 0). -/
theorem biasRelu_block_index : ∀ t : Fin cfg1.N, win1_0.index t (0 : Fin 2) = win1_2.index t (0 : Fin 2)
    ∧ win1_0.index t (1 : Fin 2) = win1_2.index t (1 : Fin 2)
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point t writes back is block t of biasRelu of the two arrays the region finds: entry (r, q) of the
    block is row 10000·t + r of the features, in the same column q, against the bias row. -/
theorem region1_flushed (c : Dev nD) (t : Fin cfg1.N) :
    (dat1 (F := Ideal) V c).flushed 2 t
      = ((cfg1.win 2).blk t).view.read (Elt Ideal) (Cert.Gcn.biasRelu (V c main_v45) (V c main_v46)) := by
  show (cfg1.win 2).cut (grid1.coords t) ((dat1 V c).after 2 t) = _
  rw [after1_2]
  unfold out1_2
  rw [View.canon_unit_zero bias_store_origin]
  simp only [View.ld_unit_zero (S := S10000x128) bias_store_origin, View.ld_unit_zero (S := S1x128) bias_store_origin]
  obtain ⟨e0, e1, e2, e3, e4, e5⟩ := biasRelu_block_index t
  funext j
  show k1_pay1 (iblk1 V c 0 t) (iblk1 V c 1 t) j
      = Cert.Gcn.biasRelu (V c main_v45) (V c main_v46) (((cfg1.win 2).blk t).view.emb j)
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  refine biasRelu_block_point (iblk1 V c 0 t) (iblk1 V c 1 t) (V c main_v45) (V c main_v46) j
    (((cfg1.win 2).blk t).view.emb j) ?_ ?_ ?_
  · show V c main_v45 (((cfg1.win 0).blk t).view.emb j) = V c main_v45 (((cfg1.win 2).blk t).view.emb j)
    rw [h0]
  · intro q
    show V c main_v46 (((cfg1.win 1).blk t).view.emb (ix2 (0 : Fin 1) q)) = V c main_v46 (ix2 (0 : Fin 1) q)
    refine congrArg (V c main_v46) ?_
    funext a; apply Fin.ext
    match a with
    | ⟨0, _⟩ => show win1_1.index t (0 : Fin 2) * 1 + 1 * 0 = 0; omega
    | ⟨1, _⟩ => show win1_1.index t (1 : Fin 2) * 128 + 1 * q.val = q.val; omega
  · show win1_2.index t (1 : Fin 2) * 128 + 1 * (j 1).val = (j 1).val; omega

/-- An index of the [50000, 128] array lies in point t's block iff, on each axis, its coordinate lies in the
    block's range: rows 10000·(block index) … + 9999, all 128 columns. -/
theorem biasRelu_mem_block (t : Fin cfg1.N) (i : S50000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v47).slice (win1_2.rect t)).set ↔ _
  rw [View.set_slice_whole, Rect.mem_set_unit]
  exact Iff.rfl

/-- Every entry is written back: row r lies in the block of point r / 10000. -/
theorem region1_cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 5 := N_1
  let t : Fin cfg1.N := ⟨(i 0).val / 10000, by rw [hN]; omega⟩
  obtain ⟨-, -, -, -, e4, e5⟩ := biasRelu_block_index t
  have ht : t.val = (i 0).val / 10000 := rfl
  refine ⟨t, flush1_2 t, ?_⟩
  rw [biasRelu_mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The first bias stage's output array after its five grid points: max(a(r, q) + b(0, q), 0) at every (r, q),
    a and b the two arrays the region finds. -/
theorem region1_value (c : Dev nD) :
    (dat1 (F := Ideal) V c).arrAt 2 cfg1.N = Cert.Gcn.biasRelu (V c main_v45) (V c main_v46) :=
  (dat1 (F := Ideal) V c).arrAt_eq_of_cover 2 (Cert.Gcn.biasRelu (V c main_v45) (V c main_v46))
    (fun t _ => region1_flushed V c t) region1_cover

/-! ## The second bias stage: bias only -/

/-- Entry (p, q) of what a grid point of the second bias stage stores: the block's entry plus the bias row's
    entry in column q. -/
theorem biasAdd_block_apply (x0 : Vec Ideal S10000x64 .f32) (b : Vec Ideal S1x64 .f32) (p : Fin 10000) (q : Fin 64) :
    k3_pay1 x0 b (ix2 p q) = x0 (ix2 p q) + b (ix2 (0 : Fin 1) q) := by
  unfold k3_pay1
  rw [addf_apply, shapeCast_self, shapeCast_self]
  exact congrArg (x0 (ix2 p q) + ·) (broadcastTo_apply b broadcasts_S1x64_S10000x64 (ix2 p q) (ix2 (0 : Fin 1) q) (fun a => by
    match a with
    | ⟨0, _⟩ => rfl
    | ⟨1, _⟩ => rfl))

/-- A stored entry against the whole-array function: when the block's entry j is the array's entry i, the bias
    block is the bias row, and i and j lie in the same column, the stored entry is biasAdd at i. -/
theorem biasAdd_block_point (x0 : Vec Ideal S10000x64 .f32) (b : Vec Ideal S1x64 .f32)
    (A : Cert.Gcn.Nx64.Idx → EReal) (B : Cert.Gcn.Row64.Idx → EReal) (j : S10000x64.Idx) (i : Cert.Gcn.Nx64.Idx)
    (hx : x0 j = A i) (hb : ∀ q : Fin 64, b (ix2 (0 : Fin 1) q) = B (ix2 (0 : Fin 1) q))
    (hcol : (i 1).val = (j 1).val) :
    k3_pay1 x0 b j = Cert.Gcn.biasAdd A B i := by
  obtain ⟨p, q, rfl⟩ : ∃ (p : Fin 10000) (q : Fin 64), j = ix2 p q := ⟨j 0, j 1, eq_ix2 j⟩
  rw [biasAdd_block_apply, hx, hb]
  have hq : (⟨(i 1).val, (i 1).isLt⟩ : Fin 64) = q := Fin.ext hcol
  unfold Cert.Gcn.biasAdd
  rw [hq]

/-- The index maps over the five grid points: the input block moves with the output block, the bias row is
    always block (0, 0), and the output's block index at point t is (t, 0). -/
theorem biasAdd_block_index : ∀ t : Fin cfg3.N, win3_0.index t (0 : Fin 2) = win3_2.index t (0 : Fin 2)
    ∧ win3_0.index t (1 : Fin 2) = win3_2.index t (1 : Fin 2)
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point t writes back is block t of biasAdd of the two arrays the region finds: entry (r, q) of the
    block is row 10000·t + r of the features, in the same column q, against the bias row. -/
theorem region3_flushed (c : Dev nD) (t : Fin cfg3.N) :
    (dat3 (F := Ideal) V c).flushed 2 t
      = ((cfg3.win 2).blk t).view.read (Elt Ideal) (Cert.Gcn.biasAdd (V c main_v93) (V c main_v94)) := by
  show (cfg3.win 2).cut (grid3.coords t) ((dat3 V c).after 2 t) = _
  rw [after3_2]
  unfold out3_2
  rw [View.canon_unit_zero bias_store_origin]
  simp only [View.ld_unit_zero (S := S10000x64) bias_store_origin, View.ld_unit_zero (S := S1x64) bias_store_origin]
  obtain ⟨e0, e1, e2, e3, e4, e5⟩ := biasAdd_block_index t
  funext j
  show k3_pay1 (iblk3 V c 0 t) (iblk3 V c 1 t) j
      = Cert.Gcn.biasAdd (V c main_v93) (V c main_v94) (((cfg3.win 2).blk t).view.emb j)
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  refine biasAdd_block_point (iblk3 V c 0 t) (iblk3 V c 1 t) (V c main_v93) (V c main_v94) j
    (((cfg3.win 2).blk t).view.emb j) ?_ ?_ ?_
  · show V c main_v93 (((cfg3.win 0).blk t).view.emb j) = V c main_v93 (((cfg3.win 2).blk t).view.emb j)
    rw [h0]
  · intro q
    show V c main_v94 (((cfg3.win 1).blk t).view.emb (ix2 (0 : Fin 1) q)) = V c main_v94 (ix2 (0 : Fin 1) q)
    refine congrArg (V c main_v94) ?_
    funext a; apply Fin.ext
    match a with
    | ⟨0, _⟩ => show win3_1.index t (0 : Fin 2) * 1 + 1 * 0 = 0; omega
    | ⟨1, _⟩ => show win3_1.index t (1 : Fin 2) * 64 + 1 * q.val = q.val; omega
  · show win3_2.index t (1 : Fin 2) * 64 + 1 * (j 1).val = (j 1).val; omega

/-- An index of the [50000, 64] array lies in point t's block iff, on each axis, its coordinate lies in the
    block's range: rows 10000·(block index) … + 9999, all 64 columns. -/
theorem biasAdd_mem_block (t : Fin cfg3.N) (i : S50000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v95).slice (win3_2.rect t)).set ↔ _
  rw [View.set_slice_whole, Rect.mem_set_unit]
  exact Iff.rfl

/-- Every entry is written back: row r lies in the block of point r / 10000. -/
theorem region3_cover (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 5 := N_3
  let t : Fin cfg3.N := ⟨(i 0).val / 10000, by rw [hN]; omega⟩
  obtain ⟨-, -, -, -, e4, e5⟩ := biasAdd_block_index t
  have ht : t.val = (i 0).val / 10000 := rfl
  refine ⟨t, flush3_2 t, ?_⟩
  rw [biasAdd_mem_block]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The second bias stage's output array after its five grid points: a(r, q) + b(0, q) at every (r, q), a and b
    the two arrays the region finds. -/
theorem region3_value (c : Dev nD) :
    (dat3 (F := Ideal) V c).arrAt 2 cfg3.N = Cert.Gcn.biasAdd (V c main_v93) (V c main_v94) :=
  (dat3 (F := Ideal) V c).arrAt_eq_of_cover 2 (Cert.Gcn.biasAdd (V c main_v93) (V c main_v94))
    (fun t _ => region3_flushed V c t) region3_cover

end Cert.Gcn.Regions

end
-- ==== Proof.Bridge.lean ====
/-
  The reference's four dense stages at the ideal instance, index by index, and its result as ONE function.

  At `Ideal` a host `dot_general` is the plain sum over the contracted index, an `add` / `maximum` acts entry by entry,
  and a bias broadcast [D] → [1, D] → [50000, D] reads the bias at the column. So the reference's stages are the four
  specification functions: the dense products `mm1` / `mm2`, bias-and-rectifier `biasRelu`, bias `biasAdd` — the
  biases written as the kernel writes them, the [D] argument cast to one row [1, D] (both spellings read entry c at
  (0, c)). With the two aggregation stages named by `aggr128` / `aggr64`, the reference's result is
      biasAdd (aggr64 e (mm2 (biasRelu (aggr128 e (mm1 x W1)) b1) W2)) b2.
-/
import proofs.«157647_j4028679324279_1_alg».proof.Proof.RefRead
import proofs.«157647_j4028679324279_1_alg».proof.Proof.Glue
import proofs.«157647_j4028679324279_1_alg».proof.Proof.Spec
import proofs.«157647_j4028679324279_1_alg».proof.Proof.Gen.KernelIdeal
import Idealize.ShloMosaic.Lib.ValueLayout
import Idealize.ShloMosaic.Lib.ValueIdx

noncomputable section

namespace Cert.Gcn

open Idealize.ShloMosaic Idealize.ShloMosaic.TcCoe Idealize.ShloMosaic.ValueIdx
open Cert.ReferenceIdeal Cert.ReferenceIdeal.Gen Cert.ReferenceIdeal.ReadP

/-- The first bias as the kernel stages it: the [128] argument cast to one row [1, 128]. -/
def row128 (b : (⟨S128, .f32⟩ : BufTy).Contents (Elt Ideal)) : Row128.Idx → EReal :=
  shapeCast Cert.KernelIdeal.S1x128 b Cert.KernelIdeal.Gen.shapeCasts_S128_S1x128

/-- The second bias as the kernel stages it: the [64] argument cast to one row [1, 64]. -/
def row64 (b : (⟨S64, .f32⟩ : BufTy).Contents (Elt Ideal)) : Row64.Idx → EReal :=
  shapeCast Cert.KernelIdeal.S1x64 b Cert.KernelIdeal.Gen.shapeCasts_S64_S1x64

/-- The first dense product: entry (r, c) is Σ_k x(r, k) · W1(k, c). -/
theorem ref_mm1 (x0 : (⟨S50000x128, .f32⟩ : BufTy).Contents (Elt Ideal)) (x2 : (⟨S128x128, .f32⟩ : BufTy).Contents (Elt Ideal)) :
    val_main_v7 (F := Ideal) x0 x2 = mm1 x0 x2 := by
  funext i
  refine (val_main_v7_apply x0 x2 i).trans ?_
  unfold mm1
  refine Finset.sum_congr rfl fun k _ => ?_
  have e1 : lidx_main_v7 i k = ix2 (⟨(i 0).val, (i 0).isLt⟩ : Fin 50000) k :=
    funext fun a => by match a with | ⟨0, _⟩ => rfl | ⟨1, _⟩ => rfl
  have e2 : ridx_main_v7 i k = ix2 k (⟨(i 1).val, (i 1).isLt⟩ : Fin 128) :=
    funext fun a => by match a with | ⟨0, _⟩ => rfl | ⟨1, _⟩ => rfl
  rw [e1, e2]

/-- The second dense product: entry (r, c) is Σ_k h(r, k) · W2(k, c), h the rectified first layer. -/
theorem ref_mm2 (x0 : (⟨S50000x128, .f32⟩ : BufTy).Contents (Elt Ideal)) (x1 : Edges Ideal)
    (x2 : (⟨S128x128, .f32⟩ : BufTy).Contents (Elt Ideal)) (x3 : (⟨S128, .f32⟩ : BufTy).Contents (Elt Ideal))
    (x4 : (⟨S128x64, .f32⟩ : BufTy).Contents (Elt Ideal)) :
    val_main_v57 (F := Ideal) x0 x1 x2 x3 x4 = mm2 (val_main_v49 (F := Ideal) x0 x1 x2 x3) x4 := by
  funext i
  refine (val_main_v57_apply x0 x1 x2 x3 x4 i).trans ?_
  unfold mm2
  refine Finset.sum_congr rfl fun k _ => ?_
  have e1 : lidx_main_v57 i k = ix2 (⟨(i 0).val, (i 0).isLt⟩ : Fin 50000) k :=
    funext fun a => by match a with | ⟨0, _⟩ => rfl | ⟨1, _⟩ => rfl
  have e2 : ridx_main_v57 i k = ix2 k (⟨(i 1).val, (i 1).isLt⟩ : Fin 64) :=
    funext fun a => by match a with | ⟨0, _⟩ => rfl | ⟨1, _⟩ => rfl
  rw [e1, e2]

/-- Bias and rectifier: max(a(r, c) + b1(c), 0), the bias read through the row cast at (0, c). -/
theorem ref_relu (x0 : (⟨S50000x128, .f32⟩ : BufTy).Contents (Elt Ideal)) (x1 : Edges Ideal)
    (x2 : (⟨S128x128, .f32⟩ : BufTy).Contents (Elt Ideal)) (x3 : (⟨S128, .f32⟩ : BufTy).Contents (Elt Ideal)) :
    val_main_v49 (F := Ideal) x0 x1 x2 x3 = biasRelu (val_main_v45 (F := Ideal) x0 x1 x2) (row128 x3) := by
  funext i
  rw [val_main_v49_apply, val_main_v48_apply, val_main_v47_apply, val_main_v46_apply, val_main_call1_v0_apply, val_main_call1_cst_apply]
  unfold biasRelu row128
  rw [shapeCast_a_1a_apply]
  have e : idx_main_v46 (idx_main_v47 i) = ix1 (⟨(i 1).val, (i 1).isLt⟩ : Fin 128) :=
    funext fun a => by match a with | ⟨0, _⟩ => rfl
  rw [e]
  rfl

/-- The last stage: a(r, c) + b2(c), the bias read through the row cast at (0, c). -/
theorem ref_bias (x0 : (⟨S50000x128, .f32⟩ : BufTy).Contents (Elt Ideal)) (x1 : Edges Ideal)
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal)) :
    val_main_v98 (F := Ideal) x0 x1 x2 x3 x4 x5 = biasAdd (val_main_v95 (F := Ideal) x0 x1 x2 x3 x4) (row64 x5) := by
  funext i
  rw [val_main_v98_apply, val_main_v97_apply, val_main_v96_apply]
  unfold biasAdd row64
  rw [shapeCast_a_1a_apply]
  have e : idx_main_v96 (idx_main_v97 i) = ix1 (⟨(i 1).val, (i 1).isLt⟩ : Fin 64) :=
    funext fun a => by match a with | ⟨0, _⟩ => rfl
  rw [e]
  rfl

/-- The rectified first layer: relu(Â · (x · W1) + b1). -/
def hidden (x0 : (⟨S50000x128, .f32⟩ : BufTy).Contents (Elt Ideal)) (x1 : Edges Ideal)
    (x2 : (⟨S128x128, .f32⟩ : BufTy).Contents (Elt Ideal)) (x3 : (⟨S128, .f32⟩ : BufTy).Contents (Elt Ideal)) : Nx128.Idx → EReal :=
  biasRelu (aggr128 (F := Ideal) x1 (mm1 x0 x2)) (row128 x3)

/-- The two-layer network: Â · (relu(Â · (x · W1) + b1) · W2) + b2. -/
def gcn (x0 : (⟨S50000x128, .f32⟩ : BufTy).Contents (Elt Ideal)) (x1 : Edges Ideal)
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal)) : Nx64.Idx → EReal :=
  biasAdd (aggr64 (F := Ideal) x1 (mm2 (hidden x0 x1 x2 x3) x4)) (row64 x5)

/-- The reference's result is the network. -/
theorem ref_value (x0 : (⟨S50000x128, .f32⟩ : BufTy).Contents (Elt Ideal)) (x1 : Edges Ideal)
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal)) :
    val_main_v98 (F := Ideal) x0 x1 x2 x3 x4 x5 = gcn x0 x1 x2 x3 x4 x5 := by
  rw [ref_bias, ref_v95, ref_mm2, ref_relu, ref_v45, ref_mm1]
  rfl

end Cert.Gcn

end
-- ==== Proof.KernelValue.lean ====
/-
  What the kernel program's result buffer holds after the run: the two-layer network of the launch contents.

  The frame certificate names the TensorCore's buffer contents at every boundary of @main (`W0` at launch … `W12` at
  the return): a stretch of host operations takes `W` to `after ops W`, a region replaces its arrays by what its
  write-backs leave. Walking that fold forward with one fact per boundary:
    * before the first dense product the sources and destinations are read off the edge list, the arguments untouched;
    * region 0 leaves x · W1; the degree stretch leaves dinv of the destinations; the aggregation stretch leaves
      aggr128 of the dense product, and the first bias as a row;
    * region 1 leaves the rectified first layer; the second copy of the edge chain is read off the edge list again;
    * region 2 leaves hidden · W2; the degree and aggregation stretches leave aggr64 of it and the second bias as a row;
    * region 3 leaves the result.
  Every step is a rewrite by the stretch's or the region's lemma at the boundary's contents; the aggregation chain is
  never opened.
-/
import proofs.«157647_j4028679324279_1_alg».proof.Proof.Gen.KernelIdeal.Frame
import proofs.«157647_j4028679324279_1_alg».proof.Proof.Stretch1
import proofs.«157647_j4028679324279_1_alg».proof.Proof.Stretch2
import proofs.«157647_j4028679324279_1_alg».proof.Proof.RegionMatmul
import proofs.«157647_j4028679324279_1_alg».proof.Proof.RegionBias
import proofs.«157647_j4028679324279_1_alg».proof.Proof.Bridge

set_option maxRecDepth 16384

noncomputable section

namespace Cert.Gcn.KernelValue

open Idealize.ShloMosaic Idealize.ShloMosaic.TcCoe Idealize.ShloMosaic.StableHlo Idealize.SL.Sem
open Cert.KernelIdeal Cert.KernelIdeal.Gen
open Cert.Gcn.Stretch Cert.Gcn.Regions

variable (m : (ℓ : Loc nD τ sig) → Buf (Elt Ideal) ℓ) (ρ : Dev nD → PrngReg) (c : Dev nD)

/-! ## Region 0's entry: the arguments, the sources and the destinations -/

theorem at1_arg0 : W1 m ρ c (Proc.devRef .tc main_arg0) = (m ((c : Thread nD τ).loc main_arg0)) := l1_pre_arg0 (W0 m ρ c)
theorem at1_arg1 : W1 m ρ c (Proc.devRef .tc main_arg1) = (m ((c : Thread nD τ).loc main_arg1)) := l1_pre_arg1 (W0 m ρ c)
theorem at1_arg2 : W1 m ρ c (Proc.devRef .tc main_arg2) = (m ((c : Thread nD τ).loc main_arg2)) := l1_pre_arg2 (W0 m ρ c)
theorem at1_arg3 : W1 m ρ c (Proc.devRef .tc main_arg3) = (m ((c : Thread nD τ).loc main_arg3)) := l1_pre_arg3 (W0 m ρ c)
theorem at1_arg4 : W1 m ρ c (Proc.devRef .tc main_arg4) = (m ((c : Thread nD τ).loc main_arg4)) := l1_pre_arg4 (W0 m ρ c)
theorem at1_arg5 : W1 m ρ c (Proc.devRef .tc main_arg5) = (m ((c : Thread nD τ).loc main_arg5)) := l1_pre_arg5 (W0 m ρ c)
theorem at1_src : W1 m ρ c (Proc.devRef .tc main_v3) = Cert.ReferenceIdeal.ReadP.val_main_v3 (F := Ideal) (m ((c : Thread nD τ).loc main_arg1)) := l1_src (W0 m ρ c)
theorem at1_dst : W1 m ρ c (Proc.devRef .tc main_v6) = Cert.ReferenceIdeal.ReadP.val_main_v6 (F := Ideal) (m ((c : Thread nD τ).loc main_arg1)) := l1_dst (W0 m ρ c)

/-! ## Region 0's exit: the first dense product; everything else as entered -/

theorem at2_dense : W2 m ρ c (Proc.devRef .tc main_v7) = mm1 (m ((c : Thread nD τ).loc main_arg0)) (m ((c : Thread nD τ).loc main_arg2)) := by
  refine (W2_arr m ρ c 2).trans ((region0_value (V1 m ρ) c).trans ?_)
  show mm1 (W1 m ρ c (Proc.devRef .tc main_arg0)) (W1 m ρ c (Proc.devRef .tc main_arg2)) = _
  rw [at1_arg0, at1_arg2]
theorem at2_src : W2 m ρ c (Proc.devRef .tc main_v3) = Cert.ReferenceIdeal.ReadP.val_main_v3 (F := Ideal) (m ((c : Thread nD τ).loc main_arg1)) :=
  (W2_of_ne m ρ c main_v3 (by decide)).trans (at1_src m ρ c)
theorem at2_dst : W2 m ρ c (Proc.devRef .tc main_v6) = Cert.ReferenceIdeal.ReadP.val_main_v6 (F := Ideal) (m ((c : Thread nD τ).loc main_arg1)) :=
  (W2_of_ne m ρ c main_v6 (by decide)).trans (at1_dst m ρ c)
theorem at2_arg1 : W2 m ρ c (Proc.devRef .tc main_arg1) = (m ((c : Thread nD τ).loc main_arg1)) :=
  (W2_of_ne m ρ c main_arg1 (by decide)).trans (at1_arg1 m ρ c)
theorem at2_arg3 : W2 m ρ c (Proc.devRef .tc main_arg3) = (m ((c : Thread nD τ).loc main_arg3)) :=
  (W2_of_ne m ρ c main_arg3 (by decide)).trans (at1_arg3 m ρ c)
theorem at2_arg4 : W2 m ρ c (Proc.devRef .tc main_arg4) = (m ((c : Thread nD τ).loc main_arg4)) :=
  (W2_of_ne m ρ c main_arg4 (by decide)).trans (at1_arg4 m ρ c)
theorem at2_arg5 : W2 m ρ c (Proc.devRef .tc main_arg5) = (m ((c : Thread nD τ).loc main_arg5)) :=
  (W2_of_ne m ρ c main_arg5 (by decide)).trans (at1_arg5 m ρ c)

/-! ## After the degree stretch: dinv of the destinations -/

theorem at4_dinv : W4 m ρ c (Proc.devRef .tc main_v17) = dinvCore (F := Ideal) (Cert.ReferenceIdeal.ReadP.val_main_v6 (F := Ideal) (m ((c : Thread nD τ).loc main_arg1))) :=
  (l1_dinv (W2 m ρ c)).trans (congrArg (dinvCore (F := Ideal)) (at2_dst m ρ c))
theorem at4_src : W4 m ρ c (Proc.devRef .tc main_v3) = Cert.ReferenceIdeal.ReadP.val_main_v3 (F := Ideal) (m ((c : Thread nD τ).loc main_arg1)) :=
  (l1_deg_main_v3 (W2 m ρ c)).trans (at2_src m ρ c)
theorem at4_dst : W4 m ρ c (Proc.devRef .tc main_v6) = Cert.ReferenceIdeal.ReadP.val_main_v6 (F := Ideal) (m ((c : Thread nD τ).loc main_arg1)) :=
  (l1_deg_main_v6 (W2 m ρ c)).trans (at2_dst m ρ c)
theorem at4_dense : W4 m ρ c (Proc.devRef .tc main_v7) = mm1 (m ((c : Thread nD τ).loc main_arg0)) (m ((c : Thread nD τ).loc main_arg2)) :=
  (l1_deg_main_v7 (W2 m ρ c)).trans (at2_dense m ρ c)
theorem at4_arg1 : W4 m ρ c (Proc.devRef .tc main_arg1) = (m ((c : Thread nD τ).loc main_arg1)) :=
  (l1_deg_main_arg1 (W2 m ρ c)).trans (at2_arg1 m ρ c)
theorem at4_arg3 : W4 m ρ c (Proc.devRef .tc main_arg3) = (m ((c : Thread nD τ).loc main_arg3)) :=
  (l1_deg_main_arg3 (W2 m ρ c)).trans (at2_arg3 m ρ c)
theorem at4_arg4 : W4 m ρ c (Proc.devRef .tc main_arg4) = (m ((c : Thread nD τ).loc main_arg4)) :=
  (l1_deg_main_arg4 (W2 m ρ c)).trans (at2_arg4 m ρ c)
theorem at4_arg5 : W4 m ρ c (Proc.devRef .tc main_arg5) = (m ((c : Thread nD τ).loc main_arg5)) :=
  (l1_deg_main_arg5 (W2 m ρ c)).trans (at2_arg5 m ρ c)

/-! ## Region 1's entry: the aggregated first layer and its bias as a row -/

theorem at5_aggr : W5 m ρ c (Proc.devRef .tc main_v45) = aggr128 (F := Ideal) (m ((c : Thread nD τ).loc main_arg1)) (mm1 (m ((c : Thread nD τ).loc main_arg0)) (m ((c : Thread nD τ).loc main_arg2))) := by
  refine (l1_aggr (W4 m ρ c)).trans ?_
  rw [at4_src, at4_dst, at4_dinv, at4_dense]
  rfl
theorem at5_bias : W5 m ρ c (Proc.devRef .tc main_v46) = row128 (m ((c : Thread nD τ).loc main_arg3)) := by
  refine (l1_bias (W4 m ρ c)).trans ?_
  rw [at4_arg3]
  rfl
theorem at5_arg1 : W5 m ρ c (Proc.devRef .tc main_arg1) = (m ((c : Thread nD τ).loc main_arg1)) :=
  (l1_agg_main_arg1 (W4 m ρ c)).trans (at4_arg1 m ρ c)
theorem at5_arg4 : W5 m ρ c (Proc.devRef .tc main_arg4) = (m ((c : Thread nD τ).loc main_arg4)) :=
  (l1_agg_main_arg4 (W4 m ρ c)).trans (at4_arg4 m ρ c)
theorem at5_arg5 : W5 m ρ c (Proc.devRef .tc main_arg5) = (m ((c : Thread nD τ).loc main_arg5)) :=
  (l1_agg_main_arg5 (W4 m ρ c)).trans (at4_arg5 m ρ c)

/-! ## Region 1's exit: the rectified first layer -/

theorem at6_hidden : W6 m ρ c (Proc.devRef .tc main_v47) = hidden (m ((c : Thread nD τ).loc main_arg0)) (m ((c : Thread nD τ).loc main_arg1)) (m ((c : Thread nD τ).loc main_arg2)) (m ((c : Thread nD τ).loc main_arg3)) := by
  refine (W6_arr m ρ c 2).trans ((region1_value (V5 m ρ) c).trans ?_)
  show biasRelu (W5 m ρ c (Proc.devRef .tc main_v45)) (W5 m ρ c (Proc.devRef .tc main_v46)) = _
  rw [at5_aggr, at5_bias]
  rfl
theorem at6_arg1 : W6 m ρ c (Proc.devRef .tc main_arg1) = (m ((c : Thread nD τ).loc main_arg1)) :=
  (W6_of_ne m ρ c main_arg1 (by decide)).trans (at5_arg1 m ρ c)
theorem at6_arg4 : W6 m ρ c (Proc.devRef .tc main_arg4) = (m ((c : Thread nD τ).loc main_arg4)) :=
  (W6_of_ne m ρ c main_arg4 (by decide)).trans (at5_arg4 m ρ c)
theorem at6_arg5 : W6 m ρ c (Proc.devRef .tc main_arg5) = (m ((c : Thread nD τ).loc main_arg5)) :=
  (W6_of_ne m ρ c main_arg5 (by decide)).trans (at5_arg5 m ρ c)

/-! ## Region 2's entry: the second copy of the sources and destinations -/

theorem at7_src : W7 m ρ c (Proc.devRef .tc main_v51) = Cert.ReferenceIdeal.ReadP.val_main_v53 (F := Ideal) (m ((c : Thread nD τ).loc main_arg1)) :=
  (l2_src (W6 m ρ c)).trans (congrArg (Cert.ReferenceIdeal.ReadP.val_main_v53 (F := Ideal)) (at6_arg1 m ρ c))
theorem at7_dst : W7 m ρ c (Proc.devRef .tc main_v54) = Cert.ReferenceIdeal.ReadP.val_main_v56 (F := Ideal) (m ((c : Thread nD τ).loc main_arg1)) :=
  (l2_dst (W6 m ρ c)).trans (congrArg (Cert.ReferenceIdeal.ReadP.val_main_v56 (F := Ideal)) (at6_arg1 m ρ c))
theorem at7_hidden : W7 m ρ c (Proc.devRef .tc main_v47) = hidden (m ((c : Thread nD τ).loc main_arg0)) (m ((c : Thread nD τ).loc main_arg1)) (m ((c : Thread nD τ).loc main_arg2)) (m ((c : Thread nD τ).loc main_arg3)) :=
  (l2_pre_main_v47 (W6 m ρ c)).trans (at6_hidden m ρ c)
theorem at7_arg4 : W7 m ρ c (Proc.devRef .tc main_arg4) = (m ((c : Thread nD τ).loc main_arg4)) :=
  (l2_pre_main_arg4 (W6 m ρ c)).trans (at6_arg4 m ρ c)
theorem at7_arg5 : W7 m ρ c (Proc.devRef .tc main_arg5) = (m ((c : Thread nD τ).loc main_arg5)) :=
  (l2_pre_main_arg5 (W6 m ρ c)).trans (at6_arg5 m ρ c)

/-! ## Region 2's exit: the second dense product -/

theorem at8_dense : W8 m ρ c (Proc.devRef .tc main_v55) = mm2 (hidden (m ((c : Thread nD τ).loc main_arg0)) (m ((c : Thread nD τ).loc main_arg1)) (m ((c : Thread nD τ).loc main_arg2)) (m ((c : Thread nD τ).loc main_arg3))) (m ((c : Thread nD τ).loc main_arg4)) := by
  refine (W8_arr m ρ c 2).trans ((region2_value (V7 m ρ) c).trans ?_)
  show mm2 (W7 m ρ c (Proc.devRef .tc main_v47)) (W7 m ρ c (Proc.devRef .tc main_arg4)) = _
  rw [at7_hidden, at7_arg4]
theorem at8_src : W8 m ρ c (Proc.devRef .tc main_v51) = Cert.ReferenceIdeal.ReadP.val_main_v53 (F := Ideal) (m ((c : Thread nD τ).loc main_arg1)) :=
  (W8_of_ne m ρ c main_v51 (by decide)).trans (at7_src m ρ c)
theorem at8_dst : W8 m ρ c (Proc.devRef .tc main_v54) = Cert.ReferenceIdeal.ReadP.val_main_v56 (F := Ideal) (m ((c : Thread nD τ).loc main_arg1)) :=
  (W8_of_ne m ρ c main_v54 (by decide)).trans (at7_dst m ρ c)
theorem at8_arg5 : W8 m ρ c (Proc.devRef .tc main_arg5) = (m ((c : Thread nD τ).loc main_arg5)) :=
  (W8_of_ne m ρ c main_arg5 (by decide)).trans (at7_arg5 m ρ c)

/-! ## After the second degree stretch -/

theorem at10_dinv : W10 m ρ c (Proc.devRef .tc main_v65) = dinvCore (F := Ideal) (Cert.ReferenceIdeal.ReadP.val_main_v56 (F := Ideal) (m ((c : Thread nD τ).loc main_arg1))) :=
  (l2_dinv (W8 m ρ c)).trans (congrArg (dinvCore (F := Ideal)) (at8_dst m ρ c))
theorem at10_src : W10 m ρ c (Proc.devRef .tc main_v51) = Cert.ReferenceIdeal.ReadP.val_main_v53 (F := Ideal) (m ((c : Thread nD τ).loc main_arg1)) :=
  (l2_deg_main_v51 (W8 m ρ c)).trans (at8_src m ρ c)
theorem at10_dst : W10 m ρ c (Proc.devRef .tc main_v54) = Cert.ReferenceIdeal.ReadP.val_main_v56 (F := Ideal) (m ((c : Thread nD τ).loc main_arg1)) :=
  (l2_deg_main_v54 (W8 m ρ c)).trans (at8_dst m ρ c)
theorem at10_dense : W10 m ρ c (Proc.devRef .tc main_v55) = mm2 (hidden (m ((c : Thread nD τ).loc main_arg0)) (m ((c : Thread nD τ).loc main_arg1)) (m ((c : Thread nD τ).loc main_arg2)) (m ((c : Thread nD τ).loc main_arg3))) (m ((c : Thread nD τ).loc main_arg4)) :=
  (l2_deg_main_v55 (W8 m ρ c)).trans (at8_dense m ρ c)
theorem at10_arg5 : W10 m ρ c (Proc.devRef .tc main_arg5) = (m ((c : Thread nD τ).loc main_arg5)) :=
  (l2_deg_main_arg5 (W8 m ρ c)).trans (at8_arg5 m ρ c)

/-! ## Region 3's entry: the aggregated second layer and its bias as a row -/

theorem at11_aggr : W11 m ρ c (Proc.devRef .tc main_v93)
    = aggr64 (F := Ideal) (m ((c : Thread nD τ).loc main_arg1)) (mm2 (hidden (m ((c : Thread nD τ).loc main_arg0)) (m ((c : Thread nD τ).loc main_arg1)) (m ((c : Thread nD τ).loc main_arg2)) (m ((c : Thread nD τ).loc main_arg3))) (m ((c : Thread nD τ).loc main_arg4))) := by
  refine (l2_aggr (W10 m ρ c)).trans ?_
  rw [at10_src, at10_dst, at10_dinv, at10_dense]
  rfl
theorem at11_bias : W11 m ρ c (Proc.devRef .tc main_v94) = row64 (m ((c : Thread nD τ).loc main_arg5)) := by
  refine (l2_bias (W10 m ρ c)).trans ?_
  rw [at10_arg5]
  rfl

/-! ## Region 3's exit: the result -/

/-- The result buffer after the run holds the network of the launch contents. -/
theorem result : W12 m ρ c (Proc.devRef .tc main_v95) = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W12_arr m ρ c 2).trans ((region3_value (V11 m ρ) c).trans ?_)
  show biasAdd (W11 m ρ c (Proc.devRef .tc main_v93)) (W11 m ρ c (Proc.devRef .tc main_v94)) = _
  rw [at11_aggr, at11_bias]
  rfl

end Cert.Gcn.KernelValue

end
-- ==== Proof.lean ====
/-
  A two-layer graph convolution, its Pallas kernel program against its jnp reference, over the extended reals.

  Both programs compute   out = Â · (relu(Â · (x · W1) + b1) · W2) + b2   with Â the degree-normalised adjacency of the
  edge list extended by self-loops. They spell the sparse product with Â by the SAME host operations (a gather of
  rows at the sources, a multiplication by the edges' norms, a scatter-add at the destinations), so that part is one
  opaque function on both sides. They differ only in the dense pieces, which the kernel program runs as four Pallas
  regions over five blocks of 10000 rows: x · W as a matrix unit product of blocks cast to bf16 (at the ideal instance
  a cast is the identity and the product into a zero accumulator is the plain sum over k, which is the host's
  dot_general), and the bias (and rectifier) with the bias staged as a [1, D] row. Entry by entry these are the same
  sums, sums of two terms and maxima, so no law beyond the definitions is used and finiteness of the inputs is never
  opened.

  * The three frames: the generated frame certificates for the two kernel programs; for the reference its generated
    run with the result dropped.
  * preserves: the ideal pass rewrote nothing, the claim is `True`.
  * algebraic: the kernel program's run with its result buffer named (KernelRun), that buffer read through the
    boundaries of @main as the network of the launch contents (KernelValue, over the four regions' values and the
    host stretches), and the reference's run read as the same network (Bridge).
-/
import proofs.«157647_j4028679324279_1_alg».proof.Defs
import proofs.«157647_j4028679324279_1_alg».proof.Proof.Gen.Kernel
import proofs.«157647_j4028679324279_1_alg».proof.Proof.Gen.Kernel.Frame
import proofs.«157647_j4028679324279_1_alg».proof.Proof.Gen.KernelIdeal
import proofs.«157647_j4028679324279_1_alg».proof.Proof.Gen.KernelIdeal.Frame
import proofs.«157647_j4028679324279_1_alg».proof.Proof.Gen.ReferenceIdeal
import proofs.«157647_j4028679324279_1_alg».proof.Proof.Gen.Pre_finite_inputs
import proofs.«157647_j4028679324279_1_alg».proof.Proof.RefRun
import proofs.«157647_j4028679324279_1_alg».proof.Proof.RefRead
import proofs.«157647_j4028679324279_1_alg».proof.Proof.KernelRun
import proofs.«157647_j4028679324279_1_alg».proof.Proof.KernelValue
import proofs.«157647_j4028679324279_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference launches no kernel: its frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

theorem preserves : Cert.preserves_Kernel_KernelIdeal := trivial

/-- Both runs end with the network of the (agreeing) arguments in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Gcn.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.Gcn.KernelValue.result m ρ c), (h c).2⟩)
      (Cert.Gcn.KernelRun.run_out (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v98_eq, Cert.Gcn.ref_value, (hagree c).1, (hagree c).2.1, (hagree c).2.2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
